-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46_1)) (v1 : (c : Dev Cert.KernelIdeal.nD) → Buf (Elt Ideal) ((c.tc : Thread Cert.KernelIdeal.nD Cert.KernelIdeal.τ).loc Cert.KernelIdeal.main_v46_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_1) = v0 c
          ∧ r.2.mem ((c.tc : Thread Cert.KernelIdeal.nD Cert.KernelIdeal.τ).loc Cert.KernelIdeal.main_v46_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x40 .f32) (main_arg5 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩

abbrev nBuf : Space → Nat
  | .hbm => 67
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .bf16⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x128, .bf16⟩
  | .hbm, ⟨42, _⟩ => ⟨S850000x128, .f32⟩
  | .hbm, ⟨43, _⟩ => ⟨S_, .f32⟩
  | .hbm, ⟨44, _⟩ => ⟨S50000x128, .f32⟩
  | .hbm, ⟨45, _⟩ => ⟨S850000x1, .i32⟩
  | .hbm, ⟨46, _⟩ => ⟨S50000x128, .f32⟩
  | .hbm, ⟨47, _⟩ => ⟨S1x128, .f32⟩
  | .hbm, ⟨48, _⟩ => ⟨S50000x40, .f32⟩
  | .hbm, ⟨49, _⟩ => ⟨S50000x40, .bf16⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x40, .bf16⟩
  | .hbm, ⟨59, _⟩ => ⟨S850000x40, .f32⟩
  | .hbm, ⟨60, _⟩ => ⟨S_, .f32⟩
  | .hbm, ⟨61, _⟩ => ⟨S50000x40, .f32⟩
  | .hbm, ⟨62, _⟩ => ⟨S850000x1, .i32⟩
  | .hbm, ⟨63, _⟩ => ⟨S50000x40, .f32⟩
  | .hbm, ⟨64, _⟩ => ⟨S1x40, .f32⟩
  | .hbm, ⟨65, _⟩ => ⟨S50000x40, .f32⟩
  | .hbm, ⟨66, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x1, .f32⟩
  | .local _ .vmem, ⟨19, _⟩ => ⟨S5000x1, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S50000_S850000x1_S850000_n_0_0_1_wf : ScatterDims.WF S50000 S850000x1 S850000 [] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S50000x40.size a
  hwx1_4 : ∀ i : grid1.Coords, EltTy.bits .f32 = 32 ∨ (Rect.block (s := S50000x40) S5000x40.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x40.size a ≤ S50000x40.size a
  hwx2_4 : ∀ i : grid2.Coords, EltTy.bits .f32 = 32 ∨ (Rect.block (s := S50000x40) S5000x40.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46_0) S5000x40.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v46_1) S5000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 107
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x40, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x40, .f32⟩
  | .hbm, ⟨82, _⟩ => ⟨S850000x1, .f32⟩
  | .hbm, ⟨83, _⟩ => ⟨S850000x40, .f32⟩
  | .hbm, ⟨84, _⟩ => ⟨S850000x40, .f32⟩
  | .hbm, ⟨85, _⟩ => ⟨S_, .f32⟩
  | .hbm, ⟨86, _⟩ => ⟨S50000x40, .f32⟩
  | .hbm, ⟨87, _⟩ => ⟨S850000x1, .i32⟩
  | .hbm, ⟨88, _⟩ => ⟨S50000x40, .f32⟩
  | .hbm, ⟨89, _⟩ => ⟨S1x40, .f32⟩
  | .hbm, ⟨90, _⟩ => ⟨S50000x40, .f32⟩
  | .hbm, ⟨91, _⟩ => ⟨S50000x40, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x40, .f32⟩
  | .hbm, ⟨99, _⟩ => ⟨S50000x40, .f32⟩
  | .hbm, ⟨100, _⟩ => ⟨S50000x40, .f32⟩
  | .hbm, ⟨101, _⟩ => ⟨S_, .f32⟩
  | .hbm, ⟨102, _⟩ => ⟨S50000, .f32⟩
  | .hbm, ⟨103, _⟩ => ⟨S50000x1, .f32⟩
  | .hbm, ⟨104, _⟩ => ⟨S50000x1, .f32⟩
  | .hbm, ⟨105, _⟩ => ⟨S50000x40, .f32⟩
  | .hbm, ⟨106, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  THE KERNEL'S RUN, WITH ITS RESULTS NAMED.

  @main is eight segments: three stretches of host operations, the first pipelined call, a stretch, the second call,
  a stretch, the third call. The buffer contents at each boundary are a fold from the launch memory: a stretch applies
  its operations (`StableHlo.after`), a call replaces its arrays by what its write-backs leave and keeps every other
  buffer. Every weakly fair execution terminates, nothing faulting, with every unscoped buffer at the fold's last
  contents `W8`. Read at the two result buffers and at the six arguments, that is the statement below: the log-softmax
  result and the logits end at `W8`'s values there, and the arguments end as launched. (The launch over the segments is
  the one the frame of this program is proved by; only the buffers read off the final state differ.)
-/
import proofs.«121183_j13262859010221_2_alg».proof.Proof.Gen.KernelIdeal.Frame

set_option maxRecDepth 16384

noncomputable section

namespace Cert.KernelIdeal.RunAt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with both result buffers at the fold's last
    contents and the argument arrays as launched. -/
theorem run : θ_run defs (onTc (τ := τ) (main (F := F))) ⟨m, fun _ => 0, ρ⟩ (fun r => ∀ c : Dev nD,
      r.2.mem ((c.tc : Thread nD τ).loc main_v46_1) = W8 m ρ c (Proc.devRef .tc main_v46_1)
      ∧ r.2.mem ((c.tc : Thread nD τ).loc main_v46_0) = W8 m ρ c (Proc.devRef .tc main_v46_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v46_1 (by decide)),
       h c _ (mem_uc main_v46_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunAt

end
-- ==== Proof.LibGcnDense.lean ====
/-
  The dense halves of a two-layer graph convolution, as whole-array functions on the extended reals.

  With `d` the nodes' normaliser laid out as a column `[N, 1]`:
  * `scaledProduct x w d` is the product `x · w` with row `n` multiplied by `d n`:
        entry (n, c) = (Σ_q x[n, q] · w[q, c]) · d[n];
  * `scaleBias a d b` multiplies row `n` of an aggregate `a` by `d n` and adds the bias row `b : [1, C]`:
        entry (n, c) = a[n, c] · d[n] + b[0, c];
  * `hidden a d b` is the rectified `scaleBias`: entry (n, c) = max (a[n, c] · d[n] + b[0, c]) 0;
  * `hiddenProduct a d b w` is the next layer's scaled product of the hidden rows: `scaledProduct (hidden a d b) w d`.
  An entry of each depends on row `n` of the matrix operands and on `d n` only.
-/
import Idealize.ShloMosaic.PureOps.Ideal
import Idealize.ShloMosaic.Lib.ValueIdx

noncomputable section

open scoped BigOperators

namespace Cert.Layers

open Idealize.ShloMosaic Idealize.ShloMosaic.ValueIdx

variable {N K C : Nat}

/-- The product `x · w`, row `n` scaled by `d n`. -/
def scaledProduct (x : (⟨2, ![N, K]⟩ : Shape).Idx → EReal) (w : (⟨2, ![K, C]⟩ : Shape).Idx → EReal)
    (d : (⟨2, ![N, 1]⟩ : Shape).Idx → EReal) : (⟨2, ![N, C]⟩ : Shape).Idx → EReal :=
  fun i => (∑ q : Fin K, x (ix2 (i 0) q) * w (ix2 q (i 1))) * d (ix2 (i 0) (0 : Fin 1))

theorem scaledProduct_apply (x : (⟨2, ![N, K]⟩ : Shape).Idx → EReal) (w : (⟨2, ![K, C]⟩ : Shape).Idx → EReal)
    (d : (⟨2, ![N, 1]⟩ : Shape).Idx → EReal) (n : Fin N) (c : Fin C) :
    scaledProduct x w d (ix2 n c) = (∑ q : Fin K, x (ix2 n q) * w (ix2 q c)) * d (ix2 n (0 : Fin 1)) := rfl

/-- Row `n` of the aggregate scaled by `d n`, plus the bias row. -/
def scaleBias (a : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  fun i => a i * d (ix2 (i 0) (0 : Fin 1)) + b (ix2 (0 : Fin 1) (i 1))

theorem scaleBias_apply (a : (⟨2, ![N, C]⟩ : Shape).Idx → EReal) (d : (⟨2, ![N, 1]⟩ : Shape).Idx → EReal)
    (b : (⟨2, ![1, C]⟩ : Shape).Idx → EReal) (n : Fin N) (c : Fin C) :
    scaleBias a d b (ix2 n c) = a (ix2 n c) * d (ix2 n (0 : Fin 1)) + b (ix2 (0 : Fin 1) c) := rfl

/-- The rectified scaled-and-biased aggregate. -/
def hidden (a : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  fun i => max (scaleBias a d b i) 0

theorem hidden_apply (a : (⟨2, ![N, C]⟩ : Shape).Idx → EReal) (d : (⟨2, ![N, 1]⟩ : Shape).Idx → EReal)
    (b : (⟨2, ![1, C]⟩ : Shape).Idx → EReal) (n : Fin N) (c : Fin C) :
    hidden a d b (ix2 n c) = max (a (ix2 n c) * d (ix2 n (0 : Fin 1)) + b (ix2 (0 : Fin 1) c)) 0 := rfl

/-- The next layer's scaled product of the hidden rows. -/
def hiddenProduct (a : (⟨2, ![N, K]⟩ : Shape).Idx → EReal) (d : (⟨2, ![N, 1]⟩ : Shape).Idx → EReal)
    (b : (⟨2, ![1, K]⟩ : Shape).Idx → EReal) (w : (⟨2, ![K, C]⟩ : Shape).Idx → EReal) :
    (⟨2, ![N, C]⟩ : Shape).Idx → EReal :=
  scaledProduct (hidden a d b) w d

end Cert.Layers

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.Region0.lean ====
/-
  THE FIRST PIPELINED CALL: the feature transform with the source-side normaliser folded in.

  The call walks the 50000 node rows in ten blocks of 5000. At block t the body loads rows 5000·t … 5000·t + 4999 of
  the features x (all 256 columns), the whole weight matrix w [256, 128] and the same rows of the normaliser column
  d [50000, 1], and stores (x_block · w) ⊙ d_block: entry (p, q) of the stored block is

      (∑ₖ x[5000·t + p, k] · w[k, q]) · d[5000·t + p, 0].

  That is block t of ONE whole-array function of the three arrays, `Cert.Layers.scaledProduct x w d`: an entry of the
  result depends on one row of x, one column of w and one entry of d, and row r of the result is written at block
  r / 5000. The ten blocks tile the [50000, 128] result, so after the call the result array IS `scaledProduct x w d`,
  whatever the arrays held when the call was entered.
-/
import proofs.«121183_j13262859010221_2_alg».proof.Proof.Gen.KernelIdeal.Frame
import proofs.«121183_j13262859010221_2_alg».proof.Proof.LibGcnDense
import proofs.«121183_j13262859010221_2_alg».proof.Proof.LibPlainDot
import proofs.«121183_j13262859010221_2_alg».proof.Proof.LibColumn
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen

/-- The body's matrix product is a plain one: rows by columns, no batch axes. -/
theorem plain : Cert.PlainDot.IsPlain dot_S5000x256_S256x128_S5000x128_1_0_0_1_n_n := ⟨rfl, rfl, rfl, rfl, rfl, rfl⟩

theorem zero_off : (![0, 0] : Fin 2 → Nat) = fun _ => 0 := funext fun a => by fin_cases a <;> rfl

/-- The stored value at (p, q): the product's entry times the row's normaliser. A change of float format is the
    identity on the extended reals, so the two narrowed operands are the loaded blocks themselves. -/
theorem payload_apply (x0 : Vec Ideal S5000x256 .f32) (x1 : Vec Ideal S256x128 .f32) (x2 : Vec Ideal S5000x1 .f32)
    (p : Fin 5000) (q : Fin 128) :
    k0_pay1 x0 x1 x2 (ix2 p q) = (∑ k : Fin 256, x0 (ix2 p k) * x1 (ix2 k q)) * x2 (ix2 p (0 : Fin 1)) := by
  unfold k0_pay1
  refine congrArg₂ (fun a b : EReal => a * b) (Cert.PlainDot.matmul_zero_apply plain none _ _ p q) ?_
  exact (Cert.Column.broadcastTo_a1_ab_apply _ _ p q).trans (congrFun (shapeCast_self _ _) _)

/-- The printed index maps over the grid: the row blocks of x, of d and of the result move together, block t at
    block index t; every other block index is 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- The whole-array function the call computes, of the arrays as the call finds them. -/
abbrev G (c : Dev nD) : S50000x128.Idx → EReal :=
  Cert.Layers.scaledProduct (N := 50000) (K := 256) (C := 128) (V c main_arg0) (V c main_arg2) (V c main_v17)

/-- WHAT POINT t WRITES BACK is block t of `G`. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero zero_off]
  simp only [View.ld_unit_zero (S := S5000x256) zero_off, View.ld_unit_zero (S := S256x128) zero_off,
    View.ld_unit_zero (S := S5000x1) zero_off]
  obtain ⟨e00, e01, e10, e11, e20, e21, e30, e31⟩ := index_facts t
  funext j
  obtain ⟨p, q, rfl⟩ : ∃ (p : Fin 5000) (q : Fin 128), j = ix2 p q := ⟨j 0, j 1, eq_ix2 j⟩
  refine (payload_apply _ _ _ p q).trans ?_
  have hx : ∀ k : Fin 256, ((cfg0.win 0).blk t).view.emb (ix2 p k)
      = ix2 ((((cfg0.win 3).blk t).view.emb (ix2 p q)) 0) k := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  have hw : ∀ k : Fin 256, ((cfg0.win 1).blk t).view.emb (ix2 k q)
      = ix2 k ((((cfg0.win 3).blk t).view.emb (ix2 p q)) 1) := fun k => by
    funext a; apply Fin.ext
    match a with
    | ⟨0, _⟩ => show win0_1.index t (0 : Fin 2) * 256 + 1 * k.val = k.val; omega
    | ⟨1, _⟩ => show win0_1.index t (1 : Fin 2) * 128 + 1 * q.val = win0_3.index t (1 : Fin 2) * 128 + 1 * q.val; omega
  have hd : ((cfg0.win 2).blk t).view.emb (ix2 p (0 : Fin 1))
      = ix2 ((((cfg0.win 3).blk t).view.emb (ix2 p q)) 0) (0 : Fin 1) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  have key : ∀ (X : S50000x256.Idx → EReal) (Wt : S256x128.Idx → EReal) (D : S50000x1.Idx → EReal),
      (∑ k : Fin 256, X (((cfg0.win 0).blk t).view.emb (ix2 p k)) * Wt (((cfg0.win 1).blk t).view.emb (ix2 k q)))
          * D (((cfg0.win 2).blk t).view.emb (ix2 p (0 : Fin 1)))
        = (∑ k : Fin 256, X (ix2 ((((cfg0.win 3).blk t).view.emb (ix2 p q)) 0) k)
              * Wt (ix2 k ((((cfg0.win 3).blk t).view.emb (ix2 p q)) 1)))
          * D (ix2 ((((cfg0.win 3).blk t).view.emb (ix2 p q)) 0) (0 : Fin 1)) := by
    intro X Wt D
    rw [hd]
    exact congrArg (fun s : EReal => s * _) (Finset.sum_congr rfl fun k _ =>
      congrArg₂ (fun a b : EReal => a * b) (congrArg X (hx k)) (congrArg Wt (hw k)))
  exact key (V c main_arg0) (V c main_arg2) (V c main_v17)

/-- An index of the result array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- The ten blocks tile the result: row r lies in block r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e30, e31⟩ := index_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the call: the scaled product of the arrays the call was entered with. -/
theorem final (c : Dev nD) : (dat0 (F := Ideal) V c).arrAt 3 cfg0.N = G V c :=
  (dat0 (F := Ideal) V c).arrAt_eq_of_cover 3 (G V c) (fun t _ => flushed_eq V c t) (cover)

end

end Cert.KernelIdeal.Region0

end
-- ==== Proof.Region1.lean ====
/-
  THE SECOND PIPELINED CALL: the first layer's epilogue fused with the second layer's feature transform.

  The call walks the node rows in ten blocks of 5000. At block t the body loads rows 5000·t … of the aggregate
  a [50000, 128] and of the normaliser column d [50000, 1], the bias row b [1, 128] and the weights w [128, 40], forms
  the hidden rows max (d ⊙ a + b) 0, multiplies them by w and scales row p by d once more: entry (p, q) of the stored
  block is

      (∑ₖ max (d[r, 0] · a[r, k] + b[0, k]) 0 · w[k, q]) · d[r, 0],        r = 5000·t + p.

  The product of two extended reals commutes, so this is block t of `Cert.Layers.hiddenProduct a d b w` — the scaled
  product of the hidden rows — and the ten blocks tile the [50000, 40] result: after the call the result array IS that
  function of the arrays the call was entered with.
-/
import proofs.«121183_j13262859010221_2_alg».proof.Proof.Gen.KernelIdeal.Frame
import proofs.«121183_j13262859010221_2_alg».proof.Proof.LibGcnDense
import proofs.«121183_j13262859010221_2_alg».proof.Proof.LibPlainDot
import proofs.«121183_j13262859010221_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen

/-- The body's matrix product is a plain one: rows by columns, no batch axes. -/
theorem plain : Cert.PlainDot.IsPlain dot_S5000x128_S128x40_S5000x40_1_0_0_1_n_n := ⟨rfl, rfl, rfl, rfl, rfl, rfl⟩

theorem zero_off : (![0, 0] : Fin 2 → Nat) = fun _ => 0 := funext fun a => by fin_cases a <;> rfl

/-- One hidden entry as the body forms it: the normaliser on the left of the aggregate, the bias row repeated down the
    rows, the maximum with a zero splat. -/
theorem hidden_entry (v0 : Vec Ideal S5000x1 .f32) (v2 : Vec Ideal S5000x128 .f32) (v6 : Vec Ideal S1x128 .f32)
    (p : Fin 5000) (k : Fin 128) :
    maximumf (addf (mulf (broadcastTo S5000x128 (shapeCast S5000x1 v0 shapeCasts_S5000x1_S5000x1) broadcasts_S5000x1_S5000x128)
          (shapeCast S5000x128 v2 shapeCasts_S5000x128_S5000x128))
        (broadcastTo S5000x128 (shapeCast S1x128 v6 shapeCasts_S1x128_S1x128) broadcasts_S1x128_S5000x128))
      (broadcast S5000x128 (Scalar.ofBits (F := Ideal) .f32 0x00000000#32)) (ix2 p k)
      = max (v2 (ix2 p k) * v0 (ix2 p (0 : Fin 1)) + v6 (ix2 (0 : Fin 1) k)) 0 := by
  have h1 : broadcastTo S5000x128 (shapeCast S5000x1 v0 shapeCasts_S5000x1_S5000x1) broadcasts_S5000x1_S5000x128 (ix2 p k)
      = v0 (ix2 p (0 : Fin 1)) :=
    (Cert.Column.broadcastTo_a1_ab_apply _ _ p k).trans (congrFun (shapeCast_self _ _) _)
  have h2 : shapeCast S5000x128 v2 shapeCasts_S5000x128_S5000x128 (ix2 p k) = v2 (ix2 p k) :=
    congrFun (shapeCast_self _ _) _
  have h3 : broadcastTo S5000x128 (shapeCast S1x128 v6 shapeCasts_S1x128_S1x128) broadcasts_S1x128_S5000x128 (ix2 p k)
      = v6 (ix2 (0 : Fin 1) k) :=
    (broadcastTo_1b_ab_apply _ _ p k).trans (congrFun (shapeCast_self _ _) _)
  rw [maximumf_apply, addf_apply, mulf_apply, h1, h2, h3, broadcast_apply, mul_comm]
  exact congrArg (fun z : EReal => max _ z) Ideal.ofBits_zero_f32

/-- The stored value at (p, q): the hidden row p times column q of the weights, times the row's normaliser. -/
theorem payload_apply (v0 : Vec Ideal S5000x1 .f32) (v2 : Vec Ideal S5000x128 .f32) (v6 : Vec Ideal S1x128 .f32)
    (v13 : Vec Ideal S128x40 .f32) (v16 : Vec Ideal S5000x1 .f32) (p : Fin 5000) (q : Fin 40) :
    k1_pay1 v0 v2 v6 v13 v16 (ix2 p q)
      = (∑ k : Fin 128, max (v2 (ix2 p k) * v0 (ix2 p (0 : Fin 1)) + v6 (ix2 (0 : Fin 1) k)) 0 * v13 (ix2 k q))
          * v16 (ix2 p (0 : Fin 1)) := by
  unfold k1_pay1
  refine congrArg₂ (fun a b : EReal => a * b)
    ((Cert.PlainDot.matmul_zero_apply plain none _ _ p q).trans
      (Finset.sum_congr rfl fun k _ => congrArg (fun z : EReal => z * _) (hidden_entry v0 v2 v6 p k))) ?_
  exact (Cert.Column.broadcastTo_a1_ab_apply _ _ p q).trans (congrFun (shapeCast_self _ _) _)

/-- The printed index maps over the grid: the row blocks of the aggregate, of d and of the result move together, block
    t at block index t; every other block index is 0. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- The whole-array function the call computes, of the arrays as the call finds them. -/
abbrev G (c : Dev nD) : S50000x40.Idx → EReal :=
  Cert.Layers.hiddenProduct (N := 50000) (K := 128) (C := 40) (V c main_v30) (V c main_v17) (V c main_v31) (V c main_arg4)

/-- WHAT POINT t WRITES BACK is block t of `G`. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero zero_off]
  simp only [View.ld_unit_zero (S := S5000x128) zero_off, View.ld_unit_zero (S := S1x128) zero_off,
    View.ld_unit_zero (S := S5000x1) zero_off, View.ld_unit_zero (S := S128x40) zero_off]
  obtain ⟨e00, e01, e10, e11, e20, e21, e30, e31, e40, e41⟩ := index_facts t
  funext j
  obtain ⟨p, q, rfl⟩ : ∃ (p : Fin 5000) (q : Fin 40), j = ix2 p q := ⟨j 0, j 1, eq_ix2 j⟩
  refine (payload_apply _ _ _ _ _ p q).trans ?_
  have ha : ∀ k : Fin 128, ((cfg1.win 0).blk t).view.emb (ix2 p k)
      = ix2 ((((cfg1.win 4).blk t).view.emb (ix2 p q)) 0) k := fun k => by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  have hb : ∀ k : Fin 128, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hd : ((cfg1.win 2).blk t).view.emb (ix2 p (0 : Fin 1))
      = ix2 ((((cfg1.win 4).blk t).view.emb (ix2 p q)) 0) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have hw : ∀ k : Fin 128, ((cfg1.win 3).blk t).view.emb (ix2 k q)
      = ix2 k ((((cfg1.win 4).blk t).view.emb (ix2 p q)) 1) := fun k => by
    funext a; apply Fin.ext
    match a with
    | ⟨0, _⟩ => show win1_3.index t (0 : Fin 2) * 128 + 1 * k.val = k.val; omega
    | ⟨1, _⟩ => show win1_3.index t (1 : Fin 2) * 40 + 1 * q.val = win1_4.index t (1 : Fin 2) * 40 + 1 * q.val; omega
  have key : ∀ (A : S50000x128.Idx → EReal) (B : S1x128.Idx → EReal) (D : S50000x1.Idx → EReal) (Wt : S128x40.Idx → EReal),
      (∑ k : Fin 128, max (A (((cfg1.win 0).blk t).view.emb (ix2 p k)) * D (((cfg1.win 2).blk t).view.emb (ix2 p (0 : Fin 1)))
              + B (((cfg1.win 1).blk t).view.emb (ix2 (0 : Fin 1) k))) 0
            * Wt (((cfg1.win 3).blk t).view.emb (ix2 k q)))
          * D (((cfg1.win 2).blk t).view.emb (ix2 p (0 : Fin 1)))
        = (∑ k : Fin 128, max (A (ix2 ((((cfg1.win 4).blk t).view.emb (ix2 p q)) 0) k)
                * D (ix2 ((((cfg1.win 4).blk t).view.emb (ix2 p q)) 0) (0 : Fin 1))
              + B (ix2 (0 : Fin 1) k)) 0
            * Wt (ix2 k ((((cfg1.win 4).blk t).view.emb (ix2 p q)) 1)))
          * D (ix2 ((((cfg1.win 4).blk t).view.emb (ix2 p q)) 0) (0 : Fin 1)) := by
    intro A B D Wt
    rw [hd]
    exact congrArg (fun s : EReal => s * _) (Finset.sum_congr rfl fun k _ =>
      congrArg₂ (fun a b : EReal => a * b)
        (congrArg (fun z : EReal => max z 0)
          (congrArg₂ (fun a b : EReal => a + b) (congrArg (fun i => A i * D _) (ha k)) (congrArg B (hb k))))
        (congrArg Wt (hw k)))
  exact key (V c main_v30) (V c main_v31) (V c main_v17) (V c main_arg4)

/-- An index of the result array is in point t's block iff each coordinate is in the block's range on its axis. -/
theorem mem_blk (t : Fin cfg1.N) (i : S50000x40.Idx) :
    i ∈ ((cfg1.win 4).blk t).view.set ↔ ∀ a : Fin 2, win1_4.index t a * S5000x40.size a ≤ (i a).val
      ∧ (i a).val < win1_4.index t a * S5000x40.size a + S5000x40.size a := by
  show i ∈ ((View.whole main_v32).slice (win1_4.rect t)).set ↔ _
  rw [View.set_slice_whole, Rect.mem_set_unit]
  exact Iff.rfl

/-- The ten blocks tile the result: row r lies in block r / 5000. -/
theorem cover (i : S50000x40.Idx) :
    ∃ t : Fin cfg1.N, (cfg1.win 4).flush t = true ∧ i ∈ ((cfg1.win 4).blk t).view.set := by
  have hi0 : (i 0).val < 50000 := (i 0).isLt
  have hi1 : (i 1).val < 40 := (i 1).isLt
  have hN : cfg1.N = 10 := N_1
  let t : Fin cfg1.N := ⟨(i 0).val / 5000, by rw [hN]; omega⟩
  obtain ⟨-, -, -, -, -, -, -, -, e40, e41⟩ := index_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 40 ≤ (i 1).val ∧ (i 1).val < win1_4.index t (1 : Fin 2) * 40 + 40; omega

/-- THE ARRAY after the call: the scaled product of the hidden rows, of the arrays the call was entered with. -/
theorem final (c : Dev nD) : (dat1 (F := Ideal) V c).arrAt 4 cfg1.N = G V c :=
  (dat1 (F := Ideal) V c).arrAt_eq_of_cover 4 (G V c) (fun t _ => flushed_eq V c t) (cover)

end

end Cert.KernelIdeal.Region1

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibHostRowFold.lean ====
/-
  The host's reductions along the second axis of a matrix, each read at one row, on the extended reals.

  A `stablehlo.reduce` of an [a, b] array across dimension 1 with a maximum body holds at row p the fold
  of `max` from the initial value over the entries (p, k), k < b; with an add body (the host's float sum)
  it holds the initial value plus the finite sum of the entries (p, k). These are the host-side companions
  of the vector unit's row maximum and row sum. Any extents; depends on no program.
-/
import Idealize.ShloMosaic.Lib.ValueIdx
import Idealize.ShloMosaic.PureOps.Ideal.Laws

noncomputable section

open scoped BigOperators

namespace Cert.HostRowFold

open Idealize.ShloMosaic Idealize.ShloMosaic.ValueIdx

/-- Dropping axis 1 of a rank-2 shape leaves a rank-1 shape, so the host's shape fact is also the vector
    unit's (which asks in addition that a result axis is left). -/
theorem reduces_of_to {a b : ℕ} (h' : (⟨2, ![a, b]⟩ : Shape).ReducesTo [1] ⟨1, ![a]⟩) :
    (⟨2, ![a, b]⟩ : Shape).Reduces [1] ⟨1, ![a]⟩ :=
  let ⟨e, hb⟩ := h'; ⟨e, Nat.one_pos, hb⟩

/-- The host's maximum along row `p`: the fold of `max` from the initial value over the row's entries. -/
theorem row_max {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduce FloatOps.maximumf x init h' hu (ix1 p)
      = (Finset.univ : Finset (Fin b)).fold max (init ix0) fun k => x (ix2 p k) := by
  rw [Host.reduce_eq_fold_single FloatOps.maximumf x init h' (reduces_of_to h') hu, eq_ix0 (Shape.Idx.first hu)]
  exact congrArg (fun f => Finset.fold max (init ix0) f (Finset.univ : Finset (Fin b)))
    (funext fun k => congrArg x (funext fun c => Fin.ext (by
      match c with
      | ⟨0, _⟩ => rfl
      | ⟨1, _⟩ => rfl)))

/-- The host's float sum along row `p`: the initial value plus the finite sum of the row's entries. -/
theorem row_sum {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduceAdd x init h' hu (ix1 p) = init ix0 + ∑ k : Fin b, x (ix2 p k) := by
  simp only [Host.reduceAdd, Ideal.hostReduceAdd_def]
  rw [Ideal.hostReduceAdd_single h' (reduces_of_to h'), eq_ix0 (Shape.Idx.first hu)]
  refine congrArg (init ix0 + ·) (Finset.sum_congr rfl fun k _ => ?_)
  exact congrArg x (funext fun c => Fin.ext (by
    match c with
    | ⟨0, _⟩ => rfl
    | ⟨1, _⟩ => rfl))

/-- From a zero initial value the host's float sum along row `p` is the finite sum of the row's entries. -/
theorem row_sum_zero {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  (row_sum x _ h' hu p).trans (by rw [constant_apply, Ideal.ofBits_zero_f32, zero_add])

end Cert.HostRowFold

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibRowLayer.lean ====
/-
  Two building blocks of a row-wise network layer, each in the vector unit's spelling and in the host's,
  read at one entry on the extended reals.

  * A dense layer: the product of an [R, K] array with a [K, N] weight matrix plus a length-N bias
    repeated down the rows holds at (p, c) the sum over q of l[p, q] · r[q, c], plus b[c].
  * A vector of length R laid out as a column and repeated across C lanes holds at (p, c) the vector's
    entry p (what a keep-dims row statistic is subtracted or divided by).
  Any extents (an extent that is not a unit axis is assumed different from 1, as the broadcast rules
  branch on it); depends on no program.
-/
import proofs.«121183_j13262859010221_2_alg».proof.Proof.LibPlainDot
import proofs.«121183_j13262859010221_2_alg».proof.Proof.LibRowBias
import proofs.«121183_j13262859010221_2_alg».proof.Proof.LibBroadcast
import proofs.«121183_j13262859010221_2_alg».proof.Proof.LibColumn

noncomputable section

open scoped BigOperators

namespace Cert.RowLayer

open Idealize.ShloMosaic Idealize.ShloMosaic.ValueIdx

/-- A dense layer in the vector unit's spelling: a matrix product into a zero accumulator plus the bias
    reshaped to a row and broadcast down the rows. -/
theorem kernel_dense {R K N : ℕ} {d : DotDims ⟨2, ![R, K]⟩ ⟨2, ![K, N]⟩ ⟨2, ![R, N]⟩} (hd : PlainDot.IsPlain d) (hN : N ≠ 1)
    (prec : Option ContractPrecision) {φ₁ φ₂ : FTy} (l : FVec Ideal ⟨2, ![R, K]⟩ φ₁) (r : FVec Ideal ⟨2, ![K, N]⟩ φ₂)
    (b : FVec Ideal ⟨1, ![N]⟩ .f32) (hs : (⟨1, ![N]⟩ : Shape).ShapeCasts ⟨2, ![1, N]⟩)
    (hb : (⟨2, ![1, N]⟩ : Shape).Broadcasts ⟨2, ![R, N]⟩) (p : Fin R) (c : Fin N) :
    addf (matmul d prec l r (constant ⟨2, ![R, N]⟩ .f32 0x00000000#32)) (broadcastTo ⟨2, ![R, N]⟩ (shapeCast ⟨2, ![1, N]⟩ b hs) hb) (ix2 p c)
      = (∑ q : Fin K, l (ix2 p q) * r (ix2 q c)) + b (ix1 c) :=
  congrArg₂ (· + ·) (PlainDot.matmul_zero_apply hd prec l r p c) (RowBias.bias_rows hN b hs hb p c)

/-- A dense layer in the host's spelling: a `dot_general` plus the bias broadcast to a row and then down the rows. -/
theorem host_dense {R K N : ℕ} {d : DotDims ⟨2, ![R, K]⟩ ⟨2, ![K, N]⟩ ⟨2, ![R, N]⟩} (hd : PlainDot.IsPlain d) (hN : N ≠ 1)
    (prec : Option ContractPrecision) (l : FVec Ideal ⟨2, ![R, K]⟩ .f32) (r : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![R, N]⟩ ![0, 1]) (p : Fin R) (c : Fin N) :
    addf (Host.dotGeneral d prec l r) (broadcastInDim ⟨2, ![R, N]⟩ ![0, 1] h2 (broadcastInDim ⟨2, ![1, N]⟩ ![1] h1 b)) (ix2 p c)
      = (∑ q : Fin K, l (ix2 p q) * r (ix2 q c)) + b (ix1 c) :=
  congrArg₂ (· + ·) (PlainDot.dotGeneral_apply hd prec l r p c) (Bcast.bias_rows_apply hN b h1 h2 p c)

/-- A vector as a column across the lanes, in the vector unit's spelling. -/
theorem kernel_across {α : Type} {R C : ℕ} (v : (⟨1, ![R]⟩ : Shape).Idx → α) (hs : (⟨1, ![R]⟩ : Shape).ShapeCasts ⟨2, ![R, 1]⟩)
    (hb : (⟨2, ![R, 1]⟩ : Shape).Broadcasts ⟨2, ![R, C]⟩) (p : Fin R) (c : Fin C) :
    broadcastTo ⟨2, ![R, C]⟩ (shapeCast ⟨2, ![R, 1]⟩ v hs) hb (ix2 p c) = v (ix1 p) :=
  (Column.broadcastTo_a1_ab_apply _ hb p c).trans (Column.shapeCast_a_a1_apply v hs p 0)

/-- A vector as a column across the lanes, in the host's spelling. -/
theorem host_across {α : Type} {R C : ℕ} (hR : R ≠ 1) (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (c : Fin C) :
    broadcastInDim ⟨2, ![R, C]⟩ ![0, 1] h2 (broadcastInDim ⟨2, ![R, 1]⟩ ![0] h1 v) (ix2 p c) = v (ix1 p) :=
  (Bcast.rows_of_col_apply hR _ h2 p c).trans (Bcast.col_apply hR v h1 p 0)

end Cert.RowLayer

end
-- ==== Proof.LibRowLogSoftmax.lean ====
/-
  Log-softmax along the rows of a matrix, in the vector unit's spelling and in the host's, read at one entry
  on the extended reals.

  Both lowerings of `log_softmax(x, axis = -1)` on an [R, C] array take the row's maximum as a fold of `max`
  from −∞ (the host once more against a −∞ splat, which changes nothing: a fold of `max` is at least the value
  it starts from), subtract it as a column repeated across the lanes, exponentiate, sum the row from zero, take
  the logarithm of that sum while it is still a column, and subtract it repeated across the lanes. At entry
  (p, c) each is the same function `logSoftmax` of row p:

      x[p, c] − M − log (∑ₖ exp (x[p, k] − M)),        M = max over k of x[p, k].

  The only law of the extended reals used is `b ≤ fold max b f`; otherwise the two spellings are the same
  operations in the same order. Any extents (the host's broadcast rule needs R ≠ 1); depends on no program.
-/
import proofs.«121183_j13262859010221_2_alg».proof.Proof.LibAxisFold
import proofs.«121183_j13262859010221_2_alg».proof.Proof.LibHostRowFold
import proofs.«121183_j13262859010221_2_alg».proof.Proof.LibRowLayer

noncomputable section

open scoped BigOperators

namespace Cert.RowLogSoftmax

open Idealize.ShloMosaic Idealize.ShloMosaic.ValueIdx

/-- −∞, as the f32 word both programs print. -/
abbrev ninf : EReal := Ideal.ofBits .f32 0xFF800000#32

/-- A row's maximum: the fold of `max` from −∞. -/
def top {n : ℕ} (l : Fin n → EReal) : EReal := (Finset.univ : Finset (Fin n)).fold max ninf l
/-- An entry shifted by the row's maximum. -/
def shifted {n : ℕ} (l : Fin n → EReal) (c : Fin n) : EReal := l c - top l
/-- The row's log-softmax: the shifted entry minus the logarithm of the sum of the shifted exponentials. -/
def logSoftmax {n : ℕ} (l : Fin n → EReal) (c : Fin n) : EReal :=
  shifted l c - Ideal.log (∑ k : Fin n, Ideal.exp (shifted l k))

/-- A fold of `max` is at least the value it starts from, so one more `max` against that value changes nothing. -/
theorem max_fold {n : ℕ} (b : EReal) (l : Fin n → EReal) :
    max b ((Finset.univ : Finset (Fin n)).fold max b l) = (Finset.univ : Finset (Fin n)).fold max b l :=
  max_eq_right ((Finset.le_fold_max b).mpr (Or.inl le_rfl))

section Kernel

variable {R C : ℕ} (lg : FVec Ideal ⟨2, ![R, C]⟩ .f32)
  (hr : (⟨2, ![R, C]⟩ : Shape).Reduces [1] ⟨1, ![R]⟩) (hφ : FKind.Formats .f32)
  (hmax : (0xFF800000#32 : BitVec (FTy.f32).bits) = FKind.maximumf.neutral .f32 hφ)
  (hadd : (0x00000000#32 : BitVec (FTy.f32).bits) = FKind.add.neutral .f32 hφ)
  (hs : (⟨1, ![R]⟩ : Shape).ShapeCasts ⟨2, ![R, 1]⟩) (hb : (⟨2, ![R, 1]⟩ : Shape).Broadcasts ⟨2, ![R, C]⟩)

/-- The entries shifted by their row's maximum, as the vector unit computes them. -/
abbrev kernelShift : FVec Ideal ⟨2, ![R, C]⟩ .f32 :=
  subf lg (broadcastTo ⟨2, ![R, C]⟩ (shapeCast ⟨2, ![R, 1]⟩
    (multiReduction .maximumf [1] ⟨1, ![R]⟩ lg 0xFF800000#32 hr hφ hmax) hs) hb)

/-- The vector unit's shifted entry at (p, c): the entry minus the maximum of row p. -/
theorem kernel_shift (p : Fin R) (c : Fin C) :
    kernelShift lg hr hφ hmax hs hb (ix2 p c) = shifted (fun k => lg (ix2 p k)) c :=
  congrArg (fun z : EReal => lg (ix2 p c) - z)
    ((RowLayer.kernel_across _ hs hb p c).trans (AxisFold.row_max lg 0xFF800000#32 hr hφ hmax p))

/-- The vector unit's log-softmax, at entry (p, c): the logarithm is taken of the row sums laid out as a
    column, and the column is then repeated across the lanes. -/
theorem kernel_logSoftmax (p : Fin R) (c : Fin C) :
    subf (kernelShift lg hr hφ hmax hs hb)
      (broadcastTo ⟨2, ![R, C]⟩ (log (shapeCast ⟨2, ![R, 1]⟩
        (multiReduction .add [1] ⟨1, ![R]⟩ (exp (kernelShift lg hr hφ hmax hs hb)) 0x00000000#32 hr hφ hadd) hs)) hb) (ix2 p c)
      = logSoftmax (fun k => lg (ix2 p k)) c :=
  congrArg₂ (fun a b : EReal => a - b) (kernel_shift lg hr hφ hmax hs hb p c)
    ((Column.broadcastTo_a1_ab_apply _ hb p c).trans
      (congrArg Ideal.log
        ((Column.shapeCast_a_a1_apply _ hs p 0).trans
          ((AxisFold.row_sum (exp (kernelShift lg hr hφ hmax hs hb)) hr hφ hadd p).trans
            (Finset.sum_congr rfl fun k _ => congrArg Ideal.exp (kernel_shift lg hr hφ hmax hs hb p k))))))

end Kernel

section Host

variable {R C : ℕ} (lg : FVec Ideal ⟨2, ![R, C]⟩ .f32)
  (h' : (⟨2, ![R, C]⟩ : Shape).ReducesTo [1] ⟨1, ![R]⟩) (hu : 0 < (⟨0, ![]⟩ : Shape).numel)
  (h0 : (⟨0, ![]⟩ : Shape).BroadcastsInDim ⟨1, ![R]⟩ ![])
  (h1 : (⟨1, ![R]⟩ : Shape).BroadcastsInDim ⟨2, ![R, 1]⟩ ![0])
  (h2 : (⟨2, ![R, 1]⟩ : Shape).BroadcastsInDim ⟨2, ![R, C]⟩ ![0, 1])

/-- The entries shifted by their row's maximum, as the host computes them (the maximum once more against a
    −∞ splat). -/
abbrev hostShift : FVec Ideal ⟨2, ![R, C]⟩ .f32 :=
  subf lg (broadcastInDim ⟨2, ![R, C]⟩ ![0, 1] h2 (broadcastInDim ⟨2, ![R, 1]⟩ ![0] h1
    (maximumf (broadcastInDim ⟨1, ![R]⟩ ![] h0 (constant (F := Ideal) ⟨0, ![]⟩ .f32 0xFF800000#32))
      (Host.reduce FloatOps.maximumf lg (constant (F := Ideal) ⟨0, ![]⟩ .f32 0xFF800000#32) h' hu))))

/-- The host's shifted entry at (p, c): the entry minus the maximum of row p; the extra `max` against −∞
    is absorbed because the fold already starts from −∞. -/
theorem host_shift (hR : R ≠ 1) (p : Fin R) (c : Fin C) :
    hostShift lg h' hu h0 h1 h2 (ix2 p c) = shifted (fun k => lg (ix2 p k)) c :=
  congrArg (fun z : EReal => lg (ix2 p c) - z)
    ((RowLayer.host_across hR _ h1 h2 p c).trans
      ((congrArg₂ max (Bcast.scalar_apply _ h0 (ix1 p)) (HostRowFold.row_max lg _ h' hu p)).trans
        (max_fold ninf fun k => lg (ix2 p k))))

/-- The host's log-softmax, at entry (p, c): the logarithm is taken of the row sums laid out as a column,
    between the two broadcasts. -/
theorem host_logSoftmax (hR : R ≠ 1) (p : Fin R) (c : Fin C) :
    subf (hostShift lg h' hu h0 h1 h2)
      (broadcastInDim ⟨2, ![R, C]⟩ ![0, 1] h2 (Host.log (broadcastInDim ⟨2, ![R, 1]⟩ ![0] h1
        (Host.reduceAdd (Host.exp (hostShift lg h' hu h0 h1 h2)) (constant (F := Ideal) ⟨0, ![]⟩ .f32 0x00000000#32) h' hu)))) (ix2 p c)
      = logSoftmax (fun k => lg (ix2 p k)) c :=
  congrArg₂ (fun a b : EReal => a - b) (host_shift lg h' hu h0 h1 h2 hR p c)
    ((Bcast.rows_of_col_apply hR _ h2 p c).trans
      (congrArg Ideal.log
        ((Bcast.col_apply hR _ h1 p 0).trans
          ((HostRowFold.row_sum_zero (Host.exp (hostShift lg h' hu h0 h1 h2)) h' hu p).trans
            (Finset.sum_congr rfl fun k _ => congrArg Ideal.exp (host_shift lg h' hu h0 h1 h2 hR p k))))))

end Host

end Cert.RowLogSoftmax

end
-- ==== Proof.Spec.lean ====
/-
  The last layer's two results as whole-array functions on the extended reals.

  With `Cert.Layers` (the dense halves of a graph-convolution layer: `scaledProduct`, `hidden`, `hiddenProduct`,
  `scaleBias`) the only function still to name is the row-wise log-softmax of a matrix: entry (n, c) of
  `rowLogSoftmax a` is the log-softmax of row n of `a` at c,

      a[n, c] − M − log (∑ₖ exp (a[n, k] − M)),   M the maximum of row n.

  An entry depends on row n of `a` only.
-/
import proofs.«121183_j13262859010221_2_alg».proof.Proof.LibGcnDense
import proofs.«121183_j13262859010221_2_alg».proof.Proof.LibRowLogSoftmax

noncomputable section

namespace Cert.Layers

open Idealize.ShloMosaic Idealize.ShloMosaic.ValueIdx

variable {N C : Nat}

/-- The log-softmax of every row. -/
def rowLogSoftmax (a : (⟨2, ![N, C]⟩ : Shape).Idx → EReal) : (⟨2, ![N, C]⟩ : Shape).Idx → EReal :=
  fun i => Cert.RowLogSoftmax.logSoftmax (fun k => a (ix2 (i 0) k)) (i 1)

theorem rowLogSoftmax_apply (a : (⟨2, ![N, C]⟩ : Shape).Idx → EReal) (n : Fin N) (c : Fin C) :
    rowLogSoftmax a (ix2 n c) = Cert.RowLogSoftmax.logSoftmax (fun k => a (ix2 n k)) c := rfl

end Cert.Layers

end
-- ==== Proof.Region2.lean ====
/-
  THE THIRD PIPELINED CALL: the second layer's epilogue and the log-softmax.

  The call walks the node rows in ten blocks of 5000. At block t the body loads rows 5000·t … of the aggregate
  a [50000, 40] and of the normaliser column d [50000, 1] and the bias row b [1, 40], stores the logits d ⊙ a + b into
  its first result, and into its second their row-wise log-softmax: the row's maximum as a fold of max from −∞,
  subtracted; the exponentials summed from zero; the logarithm of that sum subtracted.

  Entry (p, q) of the first stored block is a[r, q] · d[r, 0] + b[0, q] with r = 5000·t + p (the product commutes): block
  t of `Cert.Layers.scaleBias a d b`. Entry (p, q) of the second is the log-softmax of row p of the first block, which
  is row r of that array: block t of `Cert.Layers.rowLogSoftmax (scaleBias a d b)`. Both results are tiled by their ten
  blocks, so after the call they ARE those two functions of the arrays the call was entered with.
-/
import proofs.«121183_j13262859010221_2_alg».proof.Proof.Gen.KernelIdeal.Frame
import proofs.«121183_j13262859010221_2_alg».proof.Proof.Spec
import proofs.«121183_j13262859010221_2_alg».proof.Proof.LibColumn
import proofs.«121183_j13262859010221_2_alg».proof.Proof.LibRowLogSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx Idealize.SL.Sem
open Cert.KernelIdeal Cert.KernelIdeal.Gen

theorem zero_off : (![0, 0] : Fin 2 → Nat) = fun _ => 0 := funext fun a => by fin_cases a <;> rfl

/-- The logit stored at (p, q): the aggregate's entry times the row's normaliser, plus the bias. -/
theorem logit_apply (v0 : Vec Ideal S5000x1 .f32) (v2 : Vec Ideal S5000x40 .f32) (v6 : Vec Ideal S1x40 .f32)
    (p : Fin 5000) (q : Fin 40) :
    k2_pay1 v0 v2 v6 (ix2 p q) = v2 (ix2 p q) * v0 (ix2 p (0 : Fin 1)) + v6 (ix2 (0 : Fin 1) q) := by
  unfold k2_pay1
  have h1 : broadcastTo S5000x40 (shapeCast S5000x1 v0 shapeCasts_S5000x1_S5000x1) broadcasts_S5000x1_S5000x40 (ix2 p q)
      = v0 (ix2 p (0 : Fin 1)) :=
    (Cert.Column.broadcastTo_a1_ab_apply _ _ p q).trans (congrFun (shapeCast_self _ _) _)
  have h2 : shapeCast S5000x40 v2 shapeCasts_S5000x40_S5000x40 (ix2 p q) = v2 (ix2 p q) :=
    congrFun (shapeCast_self _ _) _
  have h3 : broadcastTo S5000x40 (shapeCast S1x40 v6 shapeCasts_S1x40_S1x40) broadcasts_S1x40_S5000x40 (ix2 p q)
      = v6 (ix2 (0 : Fin 1) q) :=
    (broadcastTo_1b_ab_apply _ _ p q).trans (congrFun (shapeCast_self _ _) _)
  show broadcastTo S5000x40 (shapeCast S5000x1 v0 shapeCasts_S5000x1_S5000x1) broadcasts_S5000x1_S5000x40 (ix2 p q)
        * shapeCast S5000x40 v2 shapeCasts_S5000x40_S5000x40 (ix2 p q)
      + broadcastTo S5000x40 (shapeCast S1x40 v6 shapeCasts_S1x40_S1x40) broadcasts_S1x40_S5000x40 (ix2 p q) = _
  rw [h1, h2, h3, mul_comm]

/-- The second stored value at (p, q): the log-softmax of row p of the logits. -/
theorem logSoftmax_apply (v0 : Vec Ideal S5000x1 .f32) (v2 : Vec Ideal S5000x40 .f32) (v6 : Vec Ideal S1x40 .f32)
    (p : Fin 5000) (q : Fin 40) :
    k2_pay2 v0 v2 v6 (ix2 p q) = Cert.RowLogSoftmax.logSoftmax (fun k => k2_pay1 v0 v2 v6 (ix2 p k)) q := by
  unfold k2_pay2
  exact Cert.RowLogSoftmax.kernel_logSoftmax (R := 5000) (C := 40) (k2_pay1 v0 v2 v6) reduces_S5000x40_S5000 (.inl rfl) rfl rfl
    shapeCasts_S5000_S5000x1 broadcasts_S5000x1_S5000x40 p q

/-- The printed index maps over the grid: the row blocks of the aggregate, of d and of both results move together,
    block t at block index t; every other block index is 0. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

section
variable (V : (c : Dev nD) → (b : Ref sig .tc) → Buf (Elt Ideal) ((c : Thread nD τ).loc b))

/-- The logits as one function of the arrays the call finds. -/
abbrev G3 (c : Dev nD) : S50000x40.Idx → EReal :=
  Cert.Layers.scaleBias (N := 50000) (C := 40) (V c main_v44) (V c main_v17) (V c main_v45)

/-- Their row-wise log-softmax. -/
abbrev G4 (c : Dev nD) : S50000x40.Idx → EReal := Cert.Layers.rowLogSoftmax (N := 50000) (C := 40) (G3 V c)

/-- A logit of block t at (p, k) is the logits array at the row the block's row p sits on, column k — the row read off
    EITHER result window's block, since both move with the aggregate's. -/
theorem logit_block (c : Dev nD) (t : Fin cfg2.N) (p : Fin 5000) (k : Fin 40) (r : Fin 50000)
    (hr : r.val = t.val * 5000 + p.val) :
    k2_pay1 (iblk2 V c 2 t) (iblk2 V c 0 t) (iblk2 V c 1 t) (ix2 p k) = G3 V c (ix2 r k) := by
  obtain ⟨e00, e01, e10, e11, e20, e21, e30, e31, e40, e41⟩ := index_facts t
  refine (logit_apply _ _ _ p k).trans ?_
  have ha : ((cfg2.win 0).blk t).view.emb (ix2 p k) = ix2 r k := by
    funext a; apply Fin.ext
    match a with
    | ⟨0, _⟩ => show win2_0.index t (0 : Fin 2) * 5000 + 1 * p.val = r.val; omega
    | ⟨1, _⟩ => show win2_0.index t (1 : Fin 2) * 40 + 1 * k.val = k.val; omega
  have hb : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 40 + 1 * k.val = k.val; omega
  have hd : ((cfg2.win 2).blk t).view.emb (ix2 p (0 : Fin 1)) = ix2 r (0 : Fin 1) := by
    funext a; apply Fin.ext
    match a with
    | ⟨0, _⟩ => show win2_2.index t (0 : Fin 2) * 5000 + 1 * p.val = r.val; omega
    | ⟨1, _⟩ => show win2_2.index t (1 : Fin 2) * 1 + 1 * 0 = 0; omega
  have key : ∀ (A : S50000x40.Idx → EReal) (B : S1x40.Idx → EReal) (D : S50000x1.Idx → EReal),
      A (((cfg2.win 0).blk t).view.emb (ix2 p k)) * D (((cfg2.win 2).blk t).view.emb (ix2 p (0 : Fin 1)))
          + B (((cfg2.win 1).blk t).view.emb (ix2 (0 : Fin 1) k))
        = A (ix2 r k) * D (ix2 r (0 : Fin 1)) + B (ix2 (0 : Fin 1) k) := by
    intro A B D
    exact congrArg₂ (fun a b : EReal => a + b)
      (congrArg₂ (fun a b : EReal => a * b) (congrArg A ha) (congrArg D hd)) (congrArg B hb)
  exact key (V c main_v44) (V c main_v45) (V c main_v17)

/-- WHAT POINT t WRITES BACK to the first result is block t of the logits. -/
theorem flushed3_eq (c : Dev nD) (t : Fin cfg2.N) :
    (dat2 (F := Ideal) V c).flushed 3 t = ((cfg2.win 3).blk t).view.read (Elt Ideal) (G3 V c) := by
  show (cfg2.win 3).cut (grid2.coords t) ((dat2 (F := Ideal) V c).after 3 t) = _
  rw [after2_3]
  unfold out2_3
  rw [View.canon_unit_zero zero_off]
  simp only [View.ld_unit_zero (S := S5000x40) zero_off, View.ld_unit_zero (S := S1x40) zero_off,
    View.ld_unit_zero (S := S5000x1) zero_off]
  obtain ⟨e00, e01, e10, e11, e20, e21, e30, e31, e40, e41⟩ := index_facts t
  funext j
  obtain ⟨p, q, rfl⟩ : ∃ (p : Fin 5000) (q : Fin 40), j = ix2 p q := ⟨j 0, j 1, eq_ix2 j⟩
  have hN : cfg2.N = 10 := N_2
  have htl : t.val < 10 := lt_of_lt_of_eq t.isLt hN
  have hp : p.val < 5000 := p.isLt
  let r : Fin 50000 := ⟨t.val * 5000 + p.val, by omega⟩
  have hemb : (((cfg2.win 3).blk t).view.emb (ix2 p q) : S50000x40.Idx) = ix2 r q := by
    funext a; apply Fin.ext
    match a with
    | ⟨0, _⟩ => show win2_3.index t (0 : Fin 2) * 5000 + 1 * p.val = t.val * 5000 + p.val; omega
    | ⟨1, _⟩ => show win2_3.index t (1 : Fin 2) * 40 + 1 * q.val = q.val; omega
  refine (logit_block V c t p q r rfl).trans ?_
  exact congrArg (G3 V c) hemb.symm

/-- WHAT POINT t WRITES BACK to the second result is block t of the logits' row-wise log-softmax. -/
theorem flushed4_eq (c : Dev nD) (t : Fin cfg2.N) :
    (dat2 (F := Ideal) V c).flushed 4 t = ((cfg2.win 4).blk t).view.read (Elt Ideal) (G4 V c) := by
  show (cfg2.win 4).cut (grid2.coords t) ((dat2 (F := Ideal) V c).after 4 t) = _
  rw [after2_4]
  unfold out2_4
  rw [View.canon_unit_zero zero_off]
  simp only [View.ld_unit_zero (S := S5000x40) zero_off, View.ld_unit_zero (S := S1x40) zero_off,
    View.ld_unit_zero (S := S5000x1) zero_off]
  obtain ⟨e00, e01, e10, e11, e20, e21, e30, e31, e40, e41⟩ := index_facts t
  funext j
  obtain ⟨p, q, rfl⟩ : ∃ (p : Fin 5000) (q : Fin 40), j = ix2 p q := ⟨j 0, j 1, eq_ix2 j⟩
  have hN : cfg2.N = 10 := N_2
  have htl : t.val < 10 := lt_of_lt_of_eq t.isLt hN
  have hp : p.val < 5000 := p.isLt
  let r : Fin 50000 := ⟨t.val * 5000 + p.val, by omega⟩
  have hemb : (((cfg2.win 4).blk t).view.emb (ix2 p q) : S50000x40.Idx) = ix2 r q := by
    funext a; apply Fin.ext
    match a with
    | ⟨0, _⟩ => show win2_4.index t (0 : Fin 2) * 5000 + 1 * p.val = t.val * 5000 + p.val; omega
    | ⟨1, _⟩ => show win2_4.index t (1 : Fin 2) * 40 + 1 * q.val = q.val; omega
  refine (logSoftmax_apply _ _ _ p q).trans (Eq.trans ?_ (congrArg (G4 V c) hemb.symm))
  show _ = Cert.RowLogSoftmax.logSoftmax (fun k => G3 V c (ix2 r k)) q
  exact congrArg (fun l : Fin 40 → EReal => Cert.RowLogSoftmax.logSoftmax l q)
    (funext fun k => logit_block V c t p k r rfl)

/-- An index of a result array is in point t's block iff each coordinate is in the block's range on its axis. -/
theorem mem_blk3 (t : Fin cfg2.N) (i : S50000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v46_0).slice (win2_3.rect t)).set ↔ _
  rw [View.set_slice_whole, Rect.mem_set_unit]
  exact Iff.rfl

theorem mem_blk4 (t : Fin cfg2.N) (i : S50000x40.Idx) :
    i ∈ ((cfg2.win 4).blk t).view.set ↔ ∀ a : Fin 2, win2_4.index t a * S5000x40.size a ≤ (i a).val
      ∧ (i a).val < win2_4.index t a * S5000x40.size a + S5000x40.size a := by
  show i ∈ ((View.whole main_v46_1).slice (win2_4.rect t)).set ↔ _
  rw [View.set_slice_whole, Rect.mem_set_unit]
  exact Iff.rfl

/-- The ten blocks tile each result: row r lies in block r / 5000. -/
theorem cover3 (i : S50000x40.Idx) :
    ∃ t : Fin cfg2.N, (cfg2.win 3).flush t = true ∧ i ∈ ((cfg2.win 3).blk t).view.set := by
  have hi0 : (i 0).val < 50000 := (i 0).isLt
  have hi1 : (i 1).val < 40 := (i 1).isLt
  have hN : cfg2.N = 10 := N_2
  let t : Fin cfg2.N := ⟨(i 0).val / 5000, by rw [hN]; omega⟩
  obtain ⟨-, -, -, -, -, -, e30, e31, -, -⟩ := index_facts t
  have ht : t.val = (i 0).val / 5000 := rfl
  refine ⟨t, flush2_3 t, ?_⟩
  rw [mem_blk3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 40 ≤ (i 1).val ∧ (i 1).val < win2_3.index t (1 : Fin 2) * 40 + 40; omega

theorem cover4 (i : S50000x40.Idx) :
    ∃ t : Fin cfg2.N, (cfg2.win 4).flush t = true ∧ i ∈ ((cfg2.win 4).blk t).view.set := by
  have hi0 : (i 0).val < 50000 := (i 0).isLt
  have hi1 : (i 1).val < 40 := (i 1).isLt
  have hN : cfg2.N = 10 := N_2
  let t : Fin cfg2.N := ⟨(i 0).val / 5000, by rw [hN]; omega⟩
  obtain ⟨-, -, -, -, -, -, -, -, e40, e41⟩ := index_facts t
  have ht : t.val = (i 0).val / 5000 := rfl
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 40 ≤ (i 1).val ∧ (i 1).val < win2_4.index t (1 : Fin 2) * 40 + 40; omega

/-- THE TWO ARRAYS after the call. -/
theorem final3 (c : Dev nD) : (dat2 (F := Ideal) V c).arrAt 3 cfg2.N = G3 V c :=
  (dat2 (F := Ideal) V c).arrAt_eq_of_cover 3 (G3 V c) (fun t _ => flushed3_eq V c t) (cover3)

theorem final4 (c : Dev nD) : (dat2 (F := Ideal) V c).arrAt 4 cfg2.N = G4 V c :=
  (dat2 (F := Ideal) V c).arrAt_eq_of_cover 4 (G4 V c) (fun t _ => flushed4_eq V c t) (cover4)

end

end Cert.KernelIdeal.Region2

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.KernelHost.lean ====
/-
  THE HOST OPERATIONS AROUND THE THREE CALLS, as functions of the edge list.

  From the edge list ei [2, 800000] the program builds, once:
  * `rowOf ei` / `colOf ei` — the 850000 source / target node numbers: row 0 / row 1 of ei followed by the 50000 self
    loops 0, 1, …, 49999;
  * `degOf col` — each node's in-degree: ones scatter-added into a zero vector at the targets;
  * `dvecOf col` — the normaliser: where the degree is positive the reciprocal square root of max(degree, 1), zero
    elsewhere; `dcolOf col` is the same vector laid out as a column [50000, 1].
  Between the calls it aggregates a node table hs along the edges:
  * `aggregate128 hs row col` / `aggregate40 hs row col` — the rows of hs gathered at the sources (negative numbers
    wrapped round by the node count, as array indexing does) and scatter-added into a zero table at the targets; the
    table passes through a narrower float format on the way, which is the identity on the extended reals.

  Each lemma below reads ONE buffer after ONE stretch of host operations as such a term of the buffers the stretch
  started from, or says the stretch leaves the buffer alone.
-/
import proofs.«121183_j13262859010221_2_alg».proof.Proof.Gen.KernelIdeal.Frame
import proofs.«121183_j13262859010221_2_alg».proof.Proof.LibHostWalk
import Idealize.ShloMosaic.PureOps.Ideal

set_option maxRecDepth 16384

noncomputable section

namespace Cert.KernelIdeal.Host

open Idealize.ShloMosaic Idealize.ShloMosaic.TcCoe Idealize.ShloMosaic.StableHlo Idealize.SL.Sem
open Cert.KernelIdeal Cert.KernelIdeal.Gen Cert.HostWalk

/-- The edges' source nodes, the self loops last. -/
def rowOf (ei : IVec S2x800000 32) : IVec S850000 32 :=
  concatenate S850000 0 [⟨S800000, shapeCast S800000 (extractStridedSlice S1x800000 ![0, 0] ei slices_S2x800000_S1x800000_0_0)
    shapeCasts_S1x800000_S800000⟩, ⟨S50000, iotaInDim S50000 32 0⟩] concatenates_S800000_S50000_S850000_d0

/-- The edges' target nodes, the self loops last. -/
def colOf (ei : IVec S2x800000 32) : IVec S850000 32 :=
  concatenate S850000 0 [⟨S800000, shapeCast S800000 (extractStridedSlice S1x800000 ![1, 0] ei slices_S2x800000_S1x800000_1_0)
    shapeCasts_S1x800000_S800000⟩, ⟨S50000, iotaInDim S50000 32 0⟩] concatenates_S800000_S50000_S850000_d0

/-- Each node's in-degree. -/
def degOf (col : IVec S850000 32) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 col)
    (broadcastInDim S850000 ![] bcast_S_S850000 (constant S_ .f32 0x3F800000#32))

/-- The normaliser vector. -/
def dvecOf (col : IVec S850000 32) : FVec Ideal S50000 .f32 :=
  select (cmpf .ogt (degOf col) (broadcastInDim S50000 ![] bcast_S_S50000 (constant S_ .f32 0x00000000#32)))
    (Host.rsqrt (maximumf (degOf col) (broadcastInDim S50000 ![] bcast_S_S50000 (constant S_ .f32 0x3F800000#32))))
    (broadcastInDim S50000 ![] bcast_S_S50000 (constant S_ .f32 0x00000000#32))

/-- The normaliser as a column. -/
def dcolOf (col : IVec S850000 32) : FVec Ideal S50000x1 .f32 :=
  shapeCast S50000x1 (dvecOf col) shapeCasts_S50000_S50000x1

/-- The column of source nodes, negative numbers wrapped round. -/
def wrapped (row : IVec S850000 32) : IVec S850000x1 32 :=
  broadcastInDim S850000x1 ![0] bcast_S850000_S850000x1_0
    (select (cmpi .slt row (broadcastInDim S850000 ![] bcast_S_S850000 (constantI S_ 32 0#32)))
      (addi row (broadcastInDim S850000 ![] bcast_S_S850000 (constantI S_ 32 50000#32))) row)

/-- A [50000, 128] table aggregated along the edges. -/
def aggregate128 (hs : FVec Ideal S50000x128 .f32) (row col : IVec S850000 32) : FVec Ideal S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 col)
    (extf .f32 (Host.gather gather_S50000x128_S850000x1_S850000x128_1_0_n_n_0_1_1128 (truncf .bf16 hs bitsLt_bf16_f32) (wrapped row))
      bitsLt_bf16_f32)

/-- A [50000, 40] table aggregated along the edges. -/
def aggregate40 (hs : FVec Ideal S50000x40 .f32) (row col : IVec S850000 32) : FVec Ideal S50000x40 .f32 :=
  Host.scatterAdd scatter_S50000x40_S850000x1_S850000x40_1_0_0_1
    (broadcastInDim S50000x40 ![] bcast_S_S50000x40 (constant S_ .f32 0x00000000#32))
    (broadcastInDim S850000x1 ![0] bcast_S850000_S850000x1_0 col)
    (extf .f32 (Host.gather gather_S50000x40_S850000x1_S850000x40_1_0_n_n_0_1_140 (truncf .bf16 hs bitsLt_bf16_f32) (wrapped row))
      bitsLt_bf16_f32)

variable (W : Valuation τ sig (Elt Ideal))

/-! ## The three stretches before the first call -/

/-- The contents after the three stretches that precede the first call. -/
abbrev pre : Valuation τ sig (Elt Ideal) :=
  StableHlo.after (hostOps0_2 (F := Ideal)) (StableHlo.after (hostOps0_1 (F := Ideal)) (StableHlo.after (hostOps0 (F := Ideal)) W))

theorem pre_v3 : pre W (Proc.devRef .tc main_v3) = rowOf (W (Proc.devRef .tc main_arg1)) := by
  walk_back [hostOps0_2, hostOps0_1, hostOps0]; rfl
theorem pre_v6 : pre W (Proc.devRef .tc main_v6) = colOf (W (Proc.devRef .tc main_arg1)) := by
  walk_back [hostOps0_2, hostOps0_1, hostOps0]; rfl
theorem pre_v17 : pre W (Proc.devRef .tc main_v17) = dcolOf (colOf (W (Proc.devRef .tc main_arg1))) := by
  walk_back [hostOps0_2, hostOps0_1, hostOps0]; rfl
theorem pre_arg0 : pre W (Proc.devRef .tc main_arg0) = W (Proc.devRef .tc main_arg0) := by
  walk_back [hostOps0_2, hostOps0_1, hostOps0]
theorem pre_arg2 : pre W (Proc.devRef .tc main_arg2) = W (Proc.devRef .tc main_arg2) := by
  walk_back [hostOps0_2, hostOps0_1, hostOps0]
theorem pre_arg3 : pre W (Proc.devRef .tc main_arg3) = W (Proc.devRef .tc main_arg3) := by
  walk_back [hostOps0_2, hostOps0_1, hostOps0]
theorem pre_arg4 : pre W (Proc.devRef .tc main_arg4) = W (Proc.devRef .tc main_arg4) := by
  walk_back [hostOps0_2, hostOps0_1, hostOps0]
theorem pre_arg5 : pre W (Proc.devRef .tc main_arg5) = W (Proc.devRef .tc main_arg5) := by
  walk_back [hostOps0_2, hostOps0_1, hostOps0]

/-! ## The stretch between the first and the second call -/

theorem mid1_v30 : StableHlo.after (hostOps1 (F := Ideal)) W (Proc.devRef .tc main_v30)
    = aggregate128 (W (Proc.devRef .tc main_v18)) (W (Proc.devRef .tc main_v3)) (W (Proc.devRef .tc main_v6)) := by
  walk_back [hostOps1]; rfl
theorem mid1_v31 : StableHlo.after (hostOps1 (F := Ideal)) W (Proc.devRef .tc main_v31)
    = shapeCast S1x128 (W (Proc.devRef .tc main_arg3)) shapeCasts_S128_S1x128 := by
  walk_back [hostOps1]; rfl
theorem mid1_v17 : StableHlo.after (hostOps1 (F := Ideal)) W (Proc.devRef .tc main_v17) = W (Proc.devRef .tc main_v17) := by
  walk_back [hostOps1]
theorem mid1_v3 : StableHlo.after (hostOps1 (F := Ideal)) W (Proc.devRef .tc main_v3) = W (Proc.devRef .tc main_v3) := by
  walk_back [hostOps1]
theorem mid1_v6 : StableHlo.after (hostOps1 (F := Ideal)) W (Proc.devRef .tc main_v6) = W (Proc.devRef .tc main_v6) := by
  walk_back [hostOps1]
theorem mid1_arg4 : StableHlo.after (hostOps1 (F := Ideal)) W (Proc.devRef .tc main_arg4) = W (Proc.devRef .tc main_arg4) := by
  walk_back [hostOps1]
theorem mid1_arg5 : StableHlo.after (hostOps1 (F := Ideal)) W (Proc.devRef .tc main_arg5) = W (Proc.devRef .tc main_arg5) := by
  walk_back [hostOps1]

/-! ## The stretch between the second and the third call -/

theorem mid2_v44 : StableHlo.after (hostOps2 (F := Ideal)) W (Proc.devRef .tc main_v44)
    = aggregate40 (W (Proc.devRef .tc main_v32)) (W (Proc.devRef .tc main_v3)) (W (Proc.devRef .tc main_v6)) := by
  walk_back [hostOps2]; rfl
theorem mid2_v45 : StableHlo.after (hostOps2 (F := Ideal)) W (Proc.devRef .tc main_v45)
    = shapeCast S1x40 (W (Proc.devRef .tc main_arg5)) shapeCasts_S40_S1x40 := by
  walk_back [hostOps2]; rfl
theorem mid2_v17 : StableHlo.after (hostOps2 (F := Ideal)) W (Proc.devRef .tc main_v17) = W (Proc.devRef .tc main_v17) := by
  walk_back [hostOps2]

end Cert.KernelIdeal.Host

end
-- ==== Proof.KernelValue.lean ====
/-
  THE KERNEL'S TWO RESULTS AS FUNCTIONS OF THE SIX ARGUMENTS.

  With d the normaliser column of the edge list, row / col its source / target nodes (KernelHost.lean) the program
  computes, in order,
      hs   = (x · w1) ⊙ d                                  (first call)
      a1   = hs aggregated along the edges                  (host)
      h2s  = (max (a1 ⊙ d + b1) 0 · w2) ⊙ d                 (second call)
      a2   = h2s aggregated along the edges                 (host)
      logits = a2 ⊙ d + b2,   logp = row-wise log-softmax of logits      (third call).
  Each boundary of the fold through @main is read at the few buffers the later segments use: a call's result array is
  the whole-array function its region lemma names, of the arrays the call was entered with; a call leaves every buffer
  that is not one of its arrays alone, and its input arrays as entered; a host stretch is read by KernelHost.lean.
-/
import proofs.«121183_j13262859010221_2_alg».proof.Proof.Gen.KernelIdeal.Frame
import proofs.«121183_j13262859010221_2_alg».proof.Proof.Region0
import proofs.«121183_j13262859010221_2_alg».proof.Proof.Region1
import proofs.«121183_j13262859010221_2_alg».proof.Proof.Region2
import proofs.«121183_j13262859010221_2_alg».proof.Proof.KernelHost
import proofs.«121183_j13262859010221_2_alg».proof.Proof.Spec

set_option maxRecDepth 16384

noncomputable section

namespace Cert.KernelIdeal.ValueAt

open Idealize.ShloMosaic Idealize.ShloMosaic.TcCoe Idealize.ShloMosaic.StableHlo Idealize.SL.Sem
open Cert.KernelIdeal Cert.KernelIdeal.Gen Cert.KernelIdeal.Host

/-- The first call's result. -/
def hs (x : FVec Ideal S50000x256 .f32) (ei : IVec S2x800000 32) (w1 : FVec Ideal S256x128 .f32) : FVec Ideal S50000x128 .f32 :=
  Cert.Layers.scaledProduct (N := 50000) (K := 256) (C := 128) x w1 (dcolOf (colOf ei))

/-- The second call's result. -/
def h2s (x : FVec Ideal S50000x256 .f32) (ei : IVec S2x800000 32) (w1 : FVec Ideal S256x128 .f32) (b1 : FVec Ideal S128 .f32)
    (w2 : FVec Ideal S128x40 .f32) : FVec Ideal S50000x40 .f32 :=
  Cert.Layers.hiddenProduct (N := 50000) (K := 128) (C := 40) (aggregate128 (hs x ei w1) (rowOf ei) (colOf ei)) (dcolOf (colOf ei))
    (shapeCast S1x128 b1 shapeCasts_S128_S1x128) w2

/-- The logits. -/
def logits (x : FVec Ideal S50000x256 .f32) (ei : IVec S2x800000 32) (w1 : FVec Ideal S256x128 .f32) (b1 : FVec Ideal S128 .f32)
    (w2 : FVec Ideal S128x40 .f32) (b2 : FVec Ideal S40 .f32) : FVec Ideal S50000x40 .f32 :=
  Cert.Layers.scaleBias (N := 50000) (C := 40) (aggregate40 (h2s x ei w1 b1 w2) (rowOf ei) (colOf ei)) (dcolOf (colOf ei))
    (shapeCast S1x40 b2 shapeCasts_S40_S1x40)

/-- Their row-wise log-softmax. -/
def logp (x : FVec Ideal S50000x256 .f32) (ei : IVec S2x800000 32) (w1 : FVec Ideal S256x128 .f32) (b1 : FVec Ideal S128 .f32)
    (w2 : FVec Ideal S128x40 .f32) (b2 : FVec Ideal S40 .f32) : FVec Ideal S50000x40 .f32 :=
  Cert.Layers.rowLogSoftmax (N := 50000) (C := 40) (logits x ei w1 b1 w2 b2)

variable (m : (ℓ : Loc nD τ sig) → Buf (Elt Ideal) ℓ) (ρ : Dev nD → PrngReg) (c : Dev nD)

/-! ## At the first call's entry -/

theorem e0_arg0 : W3 m ρ c (Proc.devRef .tc main_arg0) = m ((c : Thread nD τ).loc main_arg0) := pre_arg0 (W0 m ρ c)
theorem e0_arg2 : W3 m ρ c (Proc.devRef .tc main_arg2) = m ((c : Thread nD τ).loc main_arg2) := pre_arg2 (W0 m ρ c)
theorem e0_arg3 : W3 m ρ c (Proc.devRef .tc main_arg3) = m ((c : Thread nD τ).loc main_arg3) := pre_arg3 (W0 m ρ c)
theorem e0_arg4 : W3 m ρ c (Proc.devRef .tc main_arg4) = m ((c : Thread nD τ).loc main_arg4) := pre_arg4 (W0 m ρ c)
theorem e0_arg5 : W3 m ρ c (Proc.devRef .tc main_arg5) = m ((c : Thread nD τ).loc main_arg5) := pre_arg5 (W0 m ρ c)
theorem e0_v3 : W3 m ρ c (Proc.devRef .tc main_v3) = rowOf (m ((c : Thread nD τ).loc main_arg1)) := pre_v3 (W0 m ρ c)
theorem e0_v6 : W3 m ρ c (Proc.devRef .tc main_v6) = colOf (m ((c : Thread nD τ).loc main_arg1)) := pre_v6 (W0 m ρ c)
theorem e0_v17 : W3 m ρ c (Proc.devRef .tc main_v17) = dcolOf (colOf (m ((c : Thread nD τ).loc main_arg1))) := pre_v17 (W0 m ρ c)

/-! ## At the first call's exit -/

theorem x0_v18 : W4 m ρ c (Proc.devRef .tc main_v18)
    = hs (m ((c : Thread nD τ).loc main_arg0)) (m ((c : Thread nD τ).loc main_arg1)) (m ((c : Thread nD τ).loc main_arg2)) := by
  refine (W4_arr m ρ c 3).trans ((Region0.final (V3 m ρ) c).trans ?_)
  show Cert.Layers.scaledProduct (N := 50000) (K := 256) (C := 128) (W3 m ρ c (Proc.devRef .tc main_arg0))
    (W3 m ρ c (Proc.devRef .tc main_arg2)) (W3 m ρ c (Proc.devRef .tc main_v17)) = _
  rw [e0_arg0, e0_arg2, e0_v17]; rfl
theorem x0_v17 : W4 m ρ c (Proc.devRef .tc main_v17) = dcolOf (colOf (m ((c : Thread nD τ).loc main_arg1))) :=
  ((W4_arr m ρ c 2).trans (((dat0 (V3 m ρ) c).arrAt_in 2 rfl _).trans (A_eq0 (V3 m ρ) c 2))).trans (e0_v17 m ρ c)
theorem x0_v3 : W4 m ρ c (Proc.devRef .tc main_v3) = rowOf (m ((c : Thread nD τ).loc main_arg1)) :=
  (W4_of_ne m ρ c main_v3 (by decide)).trans (e0_v3 m ρ c)
theorem x0_v6 : W4 m ρ c (Proc.devRef .tc main_v6) = colOf (m ((c : Thread nD τ).loc main_arg1)) :=
  (W4_of_ne m ρ c main_v6 (by decide)).trans (e0_v6 m ρ c)
theorem x0_arg3 : W4 m ρ c (Proc.devRef .tc main_arg3) = m ((c : Thread nD τ).loc main_arg3) :=
  (W4_of_ne m ρ c main_arg3 (by decide)).trans (e0_arg3 m ρ c)
theorem x0_arg4 : W4 m ρ c (Proc.devRef .tc main_arg4) = m ((c : Thread nD τ).loc main_arg4) :=
  (W4_of_ne m ρ c main_arg4 (by decide)).trans (e0_arg4 m ρ c)
theorem x0_arg5 : W4 m ρ c (Proc.devRef .tc main_arg5) = m ((c : Thread nD τ).loc main_arg5) :=
  (W4_of_ne m ρ c main_arg5 (by decide)).trans (e0_arg5 m ρ c)

/-! ## At the second call's entry -/

theorem e1_v30 : W5 m ρ c (Proc.devRef .tc main_v30)
    = aggregate128 (hs (m ((c : Thread nD τ).loc main_arg0)) (m ((c : Thread nD τ).loc main_arg1)) (m ((c : Thread nD τ).loc main_arg2)))
        (rowOf (m ((c : Thread nD τ).loc main_arg1))) (colOf (m ((c : Thread nD τ).loc main_arg1))) := by
  refine (mid1_v30 (W4 m ρ c)).trans ?_
  rw [x0_v18, x0_v3, x0_v6]
theorem e1_v31 : W5 m ρ c (Proc.devRef .tc main_v31) = shapeCast S1x128 (m ((c : Thread nD τ).loc main_arg3)) shapeCasts_S128_S1x128 := by
  refine (mid1_v31 (W4 m ρ c)).trans ?_
  rw [x0_arg3]
theorem e1_v17 : W5 m ρ c (Proc.devRef .tc main_v17) = dcolOf (colOf (m ((c : Thread nD τ).loc main_arg1))) :=
  (mid1_v17 (W4 m ρ c)).trans (x0_v17 m ρ c)
theorem e1_v3 : W5 m ρ c (Proc.devRef .tc main_v3) = rowOf (m ((c : Thread nD τ).loc main_arg1)) :=
  (mid1_v3 (W4 m ρ c)).trans (x0_v3 m ρ c)
theorem e1_v6 : W5 m ρ c (Proc.devRef .tc main_v6) = colOf (m ((c : Thread nD τ).loc main_arg1)) :=
  (mid1_v6 (W4 m ρ c)).trans (x0_v6 m ρ c)
theorem e1_arg4 : W5 m ρ c (Proc.devRef .tc main_arg4) = m ((c : Thread nD τ).loc main_arg4) :=
  (mid1_arg4 (W4 m ρ c)).trans (x0_arg4 m ρ c)
theorem e1_arg5 : W5 m ρ c (Proc.devRef .tc main_arg5) = m ((c : Thread nD τ).loc main_arg5) :=
  (mid1_arg5 (W4 m ρ c)).trans (x0_arg5 m ρ c)

/-! ## At the second call's exit -/

theorem x1_v32 : W6 m ρ c (Proc.devRef .tc main_v32)
    = h2s (m ((c : Thread nD τ).loc main_arg0)) (m ((c : Thread nD τ).loc main_arg1)) (m ((c : Thread nD τ).loc main_arg2))
        (m ((c : Thread nD τ).loc main_arg3)) (m ((c : Thread nD τ).loc main_arg4)) := by
  refine (W6_arr m ρ c 4).trans ((Region1.final (V5 m ρ) c).trans ?_)
  show Cert.Layers.hiddenProduct (N := 50000) (K := 128) (C := 40) (W5 m ρ c (Proc.devRef .tc main_v30))
    (W5 m ρ c (Proc.devRef .tc main_v17)) (W5 m ρ c (Proc.devRef .tc main_v31)) (W5 m ρ c (Proc.devRef .tc main_arg4)) = _
  rw [e1_v30, e1_v17, e1_v31, e1_arg4]; rfl
theorem x1_v17 : W6 m ρ c (Proc.devRef .tc main_v17) = dcolOf (colOf (m ((c : Thread nD τ).loc main_arg1))) :=
  ((W6_arr m ρ c 2).trans (((dat1 (V5 m ρ) c).arrAt_in 2 rfl _).trans (A_eq1 (V5 m ρ) c 2))).trans (e1_v17 m ρ c)
theorem x1_v3 : W6 m ρ c (Proc.devRef .tc main_v3) = rowOf (m ((c : Thread nD τ).loc main_arg1)) :=
  (W6_of_ne m ρ c main_v3 (by decide)).trans (e1_v3 m ρ c)
theorem x1_v6 : W6 m ρ c (Proc.devRef .tc main_v6) = colOf (m ((c : Thread nD τ).loc main_arg1)) :=
  (W6_of_ne m ρ c main_v6 (by decide)).trans (e1_v6 m ρ c)
theorem x1_arg5 : W6 m ρ c (Proc.devRef .tc main_arg5) = m ((c : Thread nD τ).loc main_arg5) :=
  (W6_of_ne m ρ c main_arg5 (by decide)).trans (e1_arg5 m ρ c)

/-! ## At the third call's entry -/

theorem e2_v44 : W7 m ρ c (Proc.devRef .tc main_v44)
    = aggregate40 (h2s (m ((c : Thread nD τ).loc main_arg0)) (m ((c : Thread nD τ).loc main_arg1)) (m ((c : Thread nD τ).loc main_arg2))
          (m ((c : Thread nD τ).loc main_arg3)) (m ((c : Thread nD τ).loc main_arg4)))
        (rowOf (m ((c : Thread nD τ).loc main_arg1))) (colOf (m ((c : Thread nD τ).loc main_arg1))) := by
  refine (mid2_v44 (W6 m ρ c)).trans ?_
  rw [x1_v32, x1_v3, x1_v6]
theorem e2_v45 : W7 m ρ c (Proc.devRef .tc main_v45) = shapeCast S1x40 (m ((c : Thread nD τ).loc main_arg5)) shapeCasts_S40_S1x40 := by
  refine (mid2_v45 (W6 m ρ c)).trans ?_
  rw [x1_arg5]
theorem e2_v17 : W7 m ρ c (Proc.devRef .tc main_v17) = dcolOf (colOf (m ((c : Thread nD τ).loc main_arg1))) :=
  (mid2_v17 (W6 m ρ c)).trans (x1_v17 m ρ c)

/-! ## The two results -/

/-- The logits buffer ends at `logits` of the arguments. -/
theorem result_logits : W8 m ρ c (Proc.devRef .tc main_v46_0)
    = logits (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W8_arr m ρ c 3).trans ((Region2.final3 (V7 m ρ) c).trans ?_)
  show Cert.Layers.scaleBias (N := 50000) (C := 40) (W7 m ρ c (Proc.devRef .tc main_v44))
    (W7 m ρ c (Proc.devRef .tc main_v17)) (W7 m ρ c (Proc.devRef .tc main_v45)) = _
  rw [e2_v44, e2_v17, e2_v45]; rfl

/-- The log-softmax buffer ends at `logp` of the arguments. -/
theorem result_logp : W8 m ρ c (Proc.devRef .tc main_v46_1)
    = logp (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W8_arr m ρ c 4).trans ((Region2.final4 (V7 m ρ) c).trans ?_)
  show Cert.Layers.rowLogSoftmax (N := 50000) (C := 40) (Cert.Layers.scaleBias (N := 50000) (C := 40) (W7 m ρ c (Proc.devRef .tc main_v44))
    (W7 m ρ c (Proc.devRef .tc main_v17)) (W7 m ρ c (Proc.devRef .tc main_v45))) = _
  rw [e2_v44, e2_v17, e2_v45]; rfl

end Cert.KernelIdeal.ValueAt

end
-- ==== Proof.RefRun.lean ====
/-
  THE REFERENCE'S RUN.

  The reference program is a straight line of 101 host operations (the three functions it calls inlined at their call
  sites). Every weakly fair execution of it terminates, nothing faulting, with every buffer at the line's fold from the
  launch memory; read at the two result buffers that fold is the last stage of the operation-by-operation reading of
  the program — `val_main_v67` (the log-softmax) and `val_main_v66` (the logits) of the six arguments — and at an
  argument it is the argument's launch contents, which no operation writes.
-/
import proofs.«121183_j13262859010221_2_alg».proof.Proof.RefReadP
import proofs.«121183_j13262859010221_2_alg».proof.Proof.LibHostWalk
import Idealize.ShloMosaic.PureOps.Ideal

noncomputable section

namespace Cert.ReferenceIdeal.RunAt

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Cert.HostWalk

set_option maxRecDepth 65536 in
set_option maxHeartbeats 40400000 in
/-- Every weakly fair execution of the reference terminates with both results at their stages of the arguments and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v66) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (by walk_back [ops]; rfl),
      (h c main_v66).trans (by walk_back [ops]; rfl),
      (h c main_arg0).trans (by walk_back [ops]),
      (h c main_arg1).trans (by walk_back [ops]),
      (h c main_arg2).trans (by walk_back [ops]),
      (h c main_arg3).trans (by walk_back [ops]),
      (h c main_arg4).trans (by walk_back [ops]),
      (h c main_arg5).trans (by walk_back [ops])⟩)
    (run_seq scopedRefs_eq scopedSems_eq defs main (fun _ => ops) main_eq (fun _ => ops_sub) m ρ)

end Cert.ReferenceIdeal.RunAt

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.LibVecGather.lean ====
/-
  VECTOR GATHER READ AT ONE ENTRY (a general lemma: any extents, any element type).

  A vector `x : [N]` is gathered at `E` start indices `S : [E, 1]` (what `x[idx]` lowers to for a rank-1 table):
  result entry `e` is the vector's entry at `S[e, 0]`, the start index read as a signed integer and clamped into
  `[0, N − 1]` — the same row `Cert.RowGS.srcRow` names for a row gather:
      gather x S (e) = x (srcRow S e)                                                  (`gather_vec_apply`).
  The one operand axis is collapsed and is the one the start index addresses; there is no offset axis and nothing is
  batched, so the operand coordinate is the clamped start alone.
-/
import proofs.«121183_j13262859010221_2_alg».proof.Proof.LibRowGatherScatter

noncomputable section

namespace Cert.VecGather

open Idealize.ShloMosaic Idealize.ShloMosaic.ValueIdx Cert.RowGS

variable {N E w : Nat}

/-- `g` gathers single entries of an `[N]` vector at `[E, 1]` start indices. -/
structure IsVecGather (g : GatherDims ⟨1, ![N]⟩ ⟨2, ![E, 1]⟩ ⟨1, ![E]⟩) : Prop where
  od : g.offsetDims = []
  cs : g.collapsedSliceDims = [0]
  ob : g.operandBatchingDims = []
  sb : g.startIndicesBatchingDims = []
  sim : g.startIndexMap = [0]
  ivd : g.indexVectorDim = 1
  ss : g.sliceSizes = ![1]

/-- The vector-gather dimension numbers as a literal record (any proof `wf` of their conditions). -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at the literal record, read at `e`: on the one operand axis the coordinate is the clamped start (no
    batching coordinate; the axis is collapsed, so no offset). -/
theorem gather_vecDims_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (S : IVec ⟨2, ![E, 1]⟩ w) (e : Fin E) :
    Host.gather (vecGatherDims N E wf) x S (ix1 e) = x (ix1 (srcRow hN S e)) := by
  unfold Host.gather
  congr 1
  funext a
  refine Fin.ext ?_
  obtain rfl : a = (0 : Fin 1) := Subsingleton.elim _ _
  show (vecGatherDims N E wf).start (ix1 e) S 0 + (vecGatherDims N E wf).batchCoord (ix1 e) 0
    + (vecGatherDims N E wf).offCoord (ix1 e) 0 = _
  rw [GatherDims.batchCoord_eq_zero _ _ _ List.not_mem_nil]
  rw [GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e)
      ⟨List.idxOf (0 : Fin 1) (vecGatherDims N E wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE VECTOR GATHER READ AT `e`: the vector at `srcRow S e` (the start index `S[e, 0]`, read signed and clamped
    into `[0, N − 1]`). -/
theorem gather_vec_apply {α : Type} {g : GatherDims ⟨1, ![N]⟩ ⟨2, ![E, 1]⟩ ⟨1, ![E]⟩} (hg : IsVecGather g)
    (hN : 0 < N) (x : (⟨1, ![N]⟩ : Shape).Idx → α) (S : IVec ⟨2, ![E, 1]⟩ w) (e : Fin E) :
    Host.gather g x S (ix1 e) = x (ix1 (srcRow hN S e)) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_vecDims_apply hN wf x S e

end Cert.VecGather

end
-- ==== Proof.LibGcnLaw.lean ====
/-
  The algebra that joins the two programs, on the extended reals.

  A graph-convolution layer sums, over the edges `e` that land on a node `n`, the source node's feature row scaled by
  the two ends' normalisers `d (src e) · d n`. One program multiplies every message by both factors before summing;
  the other scales the source rows by `d (src e)` first, sums, and multiplies the sum by `d n` afterwards. The two
  agree because `d n` is a non-negative number that is not `+∞`: such a factor distributes over a sum of extended
  reals whatever the summands are (an infinite summand of either sign included), while `+∞` or a negative factor would
  not. The normaliser is `1/√deg` where the degree is positive and `0` elsewhere, so it is non-negative and never
  `+∞` for every extended-real degree.
-/
import Idealize.ShloMosaic.PureOps.Ideal

noncomputable section

open scoped BigOperators

namespace Cert.GcnLaw

open Idealize.ShloMosaic

/-- A non-negative factor other than `+∞` distributes over a finite sum of extended reals. -/
theorem mul_sum {ι : Type} (s : Finset ι) (d : EReal) (h0 : 0 ≤ d) (ht : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

/-- THE LAYER LAW. Scaling the sum of the pre-scaled messages `a e · q e` by the target's normaliser `d` is summing the
    messages each scaled by the product `q e · d` of the two normalisers. (Both sums start from zero, as a scatter-add
    into a zero array does.) -/
theorem layer {ι : Type} (s : Finset ι) (d : EReal) (h0 : 0 ≤ d) (ht : d ≠ ⊤) (a q : ι → EReal) :
    d * (0 + ∑ e ∈ s, a e * q e) = 0 + ∑ e ∈ s, a e * (q e * d) := by
  rw [zero_add, zero_add, mul_sum s d h0 ht]
  refine Finset.sum_congr rfl fun e _ => ?_
  rw [mul_comm d, mul_assoc]

/-- The normaliser of a degree `x`: `1/√x` where `x` is positive, `0` elsewhere. -/
def normaliser (x : EReal) : EReal := if 0 < x then Ideal.rsqrt x else 0

theorem normaliser_nonneg (x : EReal) : 0 ≤ normaliser x := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact_mod_cast (inv_nonneg.mpr (Real.sqrt_nonneg r))
  · exact le_refl _

theorem normaliser_ne_top (x : EReal) : normaliser x ≠ ⊤ := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact EReal.coe_ne_top _
  · exact EReal.zero_ne_top

/-- The selection `where(x > 0, rsqrt x, 0)` as the programs spell it — a comparison's one-bit result choosing between
    the reciprocal square root and zero — is the normaliser. -/
theorem select_eq_normaliser (x : EReal) :
    Scalar.select (Ideal.cmp .ogt x 0) (Ideal.rsqrt x) (0 : EReal) = normaliser x := by
  unfold Scalar.select normaliser Ideal.cmp
  by_cases h : (0 : EReal) < x
  · simp [h]
  · simp [h]

end Cert.GcnLaw

end
-- ==== Proof.LibGcnLayer.lean ====
/-
  ONE GRAPH-CONVOLUTION LAYER, TWO WAYS (a general theorem: any extents, any records of the row-gather / row-scatter form).

  A node table `h : [N, C]` is gathered at the edges' sources and summed into the edges' targets. One program first
  scales row `n` of the table by the node's normaliser `d n` (the table `hs`), sums, and scales the summed row `n` by
  `d n` once more; the other multiplies every gathered row by the product of its two ends' normalisers and then sums.
  Entry by entry both are a sum over the edges `e` that land on the row:
      d n · Σ_e h[src e, c] · d (src e)   =   Σ_e h[src e, c] · (d (src e) · d (dst e)),
  because an edge that lands on `n` has target `n`, and because `d n` is non-negative and not `+∞`, so it distributes
  over the sum whatever the summands are.
-/
import proofs.«121183_j13262859010221_2_alg».proof.Proof.LibRowGatherScatter
import proofs.«121183_j13262859010221_2_alg».proof.Proof.LibVecGather
import proofs.«121183_j13262859010221_2_alg».proof.Proof.LibGcnLaw
import Idealize.ShloMosaic.Lib.Pipeline.Value
import Idealize.ShloMosaic.Lib.ValueIdx
import Idealize.ShloMosaic.Lib.Affine

noncomputable section

open scoped BigOperators

namespace Cert.GcnLayer

open Idealize.ShloMosaic Idealize.ShloMosaic.ValueIdx Cert.RowGS Cert.VecGather

variable {N E C : Nat}

/-- An edge that lands on node `n` has a non-negative target index, so wrapping negative indices round leaves it alone
    and clamping it into range gives `n` again. -/
theorem wrapped_target (hN : 0 < N) (D Sd : IVec ⟨2, ![E, 1]⟩ 32) (k : BitVec 32) (e : Fin E) (n : Fin N)
    (hw : Sd (ix2 e (0 : Fin 1)) = Scalar.select (IntOp.cmpi .slt (D (ix2 e (0 : Fin 1))) 0#32)
      (IntOp.addi (D (ix2 e (0 : Fin 1))) k) (D (ix2 e (0 : Fin 1))))
    (hl : Lands D e n) : srcRow hN Sd e = n := by
  have hx : (D (ix2 e (0 : Fin 1))).toInt = (n.val : Int) := hl
  have hc : ¬ IntOp.cmpi .slt (D (ix2 e (0 : Fin 1))) 0#32 = 1#1 := by
    rw [IntOp.cmpi_slt, hx]
    have : (0#32 : BitVec 32).toInt = 0 := by decide
    rw [this]
    omega
  have hs : Sd (ix2 e (0 : Fin 1)) = D (ix2 e (0 : Fin 1)) := by
    rw [hw]; unfold Scalar.select; exact if_neg hc
  apply Fin.ext
  show min (Sd (ix2 e (0 : Fin 1))).toInt.toNat (N - 1) = n.val
  rw [hs, hx]
  have hn : n.val < N := n.isLt
  simp only [Int.toNat_natCast]
  omega

/-- THE LAYER THEOREM. -/
theorem layer_eq (hN : 0 < N)
    {gd gd' : GatherDims ⟨2, ![N, C]⟩ ⟨2, ![E, 1]⟩ ⟨2, ![E, C]⟩} (hgd : IsRowGather gd) (hgd' : IsRowGather gd')
    {sd sd' : ScatterDims ⟨2, ![N, C]⟩ ⟨2, ![E, 1]⟩ ⟨2, ![E, C]⟩} (hsd : IsRowScatter sd) (hsd' : IsRowScatter sd')
    (zeros zeros' : FVec Ideal ⟨2, ![N, C]⟩ .f32) (hz : ∀ i, zeros i = 0) (hz' : ∀ i, zeros' i = 0)
    (D S Sd : IVec ⟨2, ![E, 1]⟩ 32)
    (hSd : ∀ (e : Fin E) (n : Fin N), Lands D e n → srcRow hN Sd e = n)
    (d : (⟨1, ![N]⟩ : Shape).Idx → EReal) (hd0 : ∀ n, 0 ≤ d (ix1 n)) (hdt : ∀ n, d (ix1 n) ≠ ⊤)
    (dcol : FVec Ideal ⟨2, ![N, C]⟩ .f32) (hdcol : ∀ n c, dcol (ix2 n c) = d (ix1 n))
    (nrm : FVec Ideal ⟨2, ![E, C]⟩ .f32)
    (hnrm : ∀ e c, nrm (ix2 e c) = d (ix1 (srcRow hN S e)) * d (ix1 (srcRow hN Sd e)))
    {φ : FTy} (hφ : φ.bits < (FTy.f32).bits) (hs : FVec Ideal ⟨2, ![N, C]⟩ φ) (h : FVec Ideal ⟨2, ![N, C]⟩ .f32)
    (hh : ∀ n c, (hs (ix2 n c) : EReal) = h (ix2 n c) * d (ix1 n)) :
    mulf dcol (Host.scatterAdd sd zeros D (extf .f32 (Host.gather gd hs S) hφ))
      = Host.scatterAdd sd' zeros' D (mulf (Host.gather gd' h S) nrm) := by
  funext i
  obtain ⟨n, c, rfl⟩ : ∃ (n : Fin N) (c : Fin C), i = ix2 n c := ⟨i 0, i 1, eq_ix2 i⟩
  rw [mulf_apply, hdcol, scatterAdd_row_apply hsd, scatterAdd_row_apply hsd', hz, hz']
  have hl : ∀ e ∈ Finset.univ.filter (fun e : Fin E => Lands D e n),
      (extf .f32 (Host.gather gd hs S) hφ) (ix2 e c) = h (ix2 (srcRow hN S e) c) * d (ix1 (srcRow hN S e)) := by
    intro e _
    rw [extf_apply, gather_row_apply hgd hN]
    exact hh _ _
  have hr : ∀ e ∈ Finset.univ.filter (fun e : Fin E => Lands D e n),
      (mulf (Host.gather gd' h S) nrm) (ix2 e c)
        = h (ix2 (srcRow hN S e) c) * (d (ix1 (srcRow hN S e)) * d (ix1 n)) := by
    intro e he
    rw [mulf_apply, gather_row_apply hgd' hN, hnrm, hSd e n (Finset.mem_filter.mp he).2]
  rw [Finset.sum_congr rfl hl, Finset.sum_congr rfl hr]
  exact Cert.GcnLaw.layer _ _ (hd0 n) (hdt n) _ _

end Cert.GcnLayer

end
-- ==== Proof.LibGcnBridge.lean ====
/-
  Program-free lemmas for the two-layer graph convolution: each says what one short chain of array operations
  reads at one entry, for any extents, with the arrays as variables.

  * a zero splat reads 0 everywhere;
  * the selection "reciprocal square root where the degree is positive, zero elsewhere" reads the normaliser of
    the degree, entry by entry;
  * a vector laid out as a row [1, C] reads the vector;
  * the column of wrapped indices (add the node count to a negative index, keep a non-negative one) reads that
    selection of the unwrapped column's entry;
  * the edge weight — the normaliser gathered at the two index columns and multiplied, then repeated across the
    lanes — reads d (first end) · d (second end);
  * the row-scaled product (x · w) ⊙ d reads the plain product's entry times d n;
  * ONE LAYER, with the normaliser multiplied on the right: (Σ over the edges into n of the scaled source rows) · d n
    is the second program's sum of weighted source rows. It is the layer theorem with the two factors of the
    entrywise product exchanged;
  * the rectified and the plain "scale the aggregate by d, add the bias row" against "add the bias, repeated down the
    rows, to the second program's aggregate", as whole arrays.
-/
import proofs.«121183_j13262859010221_2_alg».proof.Proof.LibGcnDense
import proofs.«121183_j13262859010221_2_alg».proof.Proof.LibGcnLayer
import proofs.«121183_j13262859010221_2_alg».proof.Proof.LibBroadcast
import proofs.«121183_j13262859010221_2_alg».proof.Proof.LibPlainDot
import proofs.«121183_j13262859010221_2_alg».proof.Proof.LibColumn
import Idealize.ShloMosaic.PureOps.Ideal.Laws

noncomputable section

namespace Cert.BridgeLib

open Idealize.ShloMosaic Idealize.ShloMosaic.ValueIdx Cert.RowGS Cert.VecGather

variable {N E K C : Nat}

/-- A zero splat reads 0. -/
theorem zeroSplat_apply {s : Shape} (h : (⟨0, ![]⟩ : Shape).BroadcastsInDim s ![]) (i : s.Idx) :
    (broadcastInDim s ![] h (constant (F := Ideal) ⟨0, ![]⟩ .f32 0x00000000#32) i : EReal) = 0 := by
  rw [Cert.Bcast.scalar_apply, constant_apply, Ideal.ofBits_zero_f32]

/-- Where the degree g is positive its reciprocal square root, zero elsewhere: the normaliser of g, entry by entry. -/
theorem normaliser_select {s : Shape} (g : FVec Ideal s .f32) (h : (⟨0, ![]⟩ : Shape).BroadcastsInDim s ![]) (i : s.Idx) :
    select (cmpf (F := Ideal) .ogt g (broadcastInDim s ![] h (constant ⟨0, ![]⟩ .f32 0x00000000#32))) (Host.rsqrt g)
      (broadcastInDim s ![] h (constant ⟨0, ![]⟩ .f32 0x00000000#32)) i = Cert.GcnLaw.normaliser (g i) := by
  rw [select_apply, cmpf_apply, Cert.Bcast.scalar_apply, constant_apply, Ideal.ofBits_zero_f32]
  exact Cert.GcnLaw.select_eq_normaliser (g i)

/-- A vector reshaped to a row reads, at (0, c), the vector at c. -/
theorem row_apply {α : Type} (b : (⟨1, ![C]⟩ : Shape).Idx → α) (h : (⟨1, ![C]⟩ : Shape).ShapeCasts ⟨2, ![1, C]⟩)
    (u : Fin 1) (c : Fin C) : shapeCast ⟨2, ![1, C]⟩ b h (ix2 u c) = b (ix1 c) :=
  shapeCast_apply b h _ _ (by
    have hu : u.val = 0 := by omega
    rw [Shape.rowMajor_val_two, Shape.rowMajor_val_one]
    show c.val = u.val * C + c.val
    rw [hu, Nat.zero_mul, Nat.zero_add])

/-- The column of wrapped indices, read at edge e: the unwrapped column's entry plus k when negative, else itself. -/
theorem wrapped_col_apply (hE : E ≠ 1) (t : IVec ⟨1, ![E]⟩ 32)
    (hb : (⟨0, ![]⟩ : Shape).BroadcastsInDim ⟨1, ![E]⟩ ![])
    (hc : (⟨1, ![E]⟩ : Shape).BroadcastsInDim ⟨2, ![E, 1]⟩ ![0]) (k : BitVec 32) (e : Fin E) :
    broadcastInDim ⟨2, ![E, 1]⟩ ![0] hc
        (select (cmpi .slt t (broadcastInDim ⟨1, ![E]⟩ ![] hb (constantI ⟨0, ![]⟩ 32 0#32)))
          (addi t (broadcastInDim ⟨1, ![E]⟩ ![] hb (constantI ⟨0, ![]⟩ 32 k))) t) (ix2 e (0 : Fin 1))
      = Scalar.select (IntOp.cmpi .slt (broadcastInDim ⟨2, ![E, 1]⟩ ![0] hc t (ix2 e (0 : Fin 1))) 0#32)
          (IntOp.addi (broadcastInDim ⟨2, ![E, 1]⟩ ![0] hc t (ix2 e (0 : Fin 1))) k)
          (broadcastInDim ⟨2, ![E, 1]⟩ ![0] hc t (ix2 e (0 : Fin 1))) := by
  rw [Cert.Bcast.col_apply hE, Cert.Bcast.col_apply hE]
  have h0 : broadcastInDim ⟨1, ![E]⟩ ![] hb (constantI ⟨0, ![]⟩ 32 0#32) (ix1 e) = 0#32 :=
    Cert.Bcast.scalar_apply _ _ _
  have hk : broadcastInDim ⟨1, ![E]⟩ ![] hb (constantI ⟨0, ![]⟩ 32 k) (ix1 e) = k :=
    Cert.Bcast.scalar_apply _ _ _
  show Scalar.select
      (IntOp.cmpi .slt (t (ix1 e)) (broadcastInDim ⟨1, ![E]⟩ ![] hb (constantI ⟨0, ![]⟩ 32 0#32) (ix1 e)))
      (IntOp.addi (t (ix1 e)) (broadcastInDim ⟨1, ![E]⟩ ![] hb (constantI ⟨0, ![]⟩ 32 k) (ix1 e))) (t (ix1 e)) = _
  rw [h0, hk]

/-- The product of a vector gathered at two index columns reads d (first end) · d (second end). -/
theorem weight_apply (hN : 0 < N) {g : GatherDims ⟨1, ![N]⟩ ⟨2, ![E, 1]⟩ ⟨1, ![E]⟩} (hg : IsVecGather g)
    (d : FVec Ideal ⟨1, ![N]⟩ .f32) (S Sd : IVec ⟨2, ![E, 1]⟩ 32) (e : Fin E) :
    mulf (Host.gather g d S) (Host.gather g d Sd) (ix1 e) = d (ix1 (srcRow hN S e)) * d (ix1 (srcRow hN Sd e)) := by
  rw [mulf_apply, gather_vec_apply hg hN, gather_vec_apply hg hN]

/-- The same weight laid out as a column and repeated across C lanes. -/
theorem weight_lanes_apply (hE : E ≠ 1) (hN : 0 < N) {g : GatherDims ⟨1, ![N]⟩ ⟨2, ![E, 1]⟩ ⟨1, ![E]⟩}
    (hg : IsVecGather g) (d : FVec Ideal ⟨1, ![N]⟩ .f32) (S Sd : IVec ⟨2, ![E, 1]⟩ 32)
    (hc : (⟨1, ![E]⟩ : Shape).BroadcastsInDim ⟨2, ![E, 1]⟩ ![0])
    (hr : (⟨2, ![E, 1]⟩ : Shape).BroadcastsInDim ⟨2, ![E, C]⟩ ![0, 1]) (e : Fin E) (c : Fin C) :
    broadcastInDim ⟨2, ![E, C]⟩ ![0, 1] hr
        (broadcastInDim ⟨2, ![E, 1]⟩ ![0] hc (mulf (Host.gather g d S) (Host.gather g d Sd))) (ix2 e c)
      = d (ix1 (srcRow hN S e)) * d (ix1 (srcRow hN Sd e)) := by
  rw [Cert.Bcast.rows_of_col_apply hE, Cert.Bcast.col_apply hE]
  exact weight_apply hN hg d S Sd e

/-- The row-scaled product reads the plain product's entry times the row's normaliser. -/
theorem scaledProduct_eq_dot {dd : DotDims ⟨2, ![N, K]⟩ ⟨2, ![K, C]⟩ ⟨2, ![N, C]⟩} (hdd : Cert.PlainDot.IsPlain dd)
    (x : FVec Ideal ⟨2, ![N, K]⟩ .f32) (w : FVec Ideal ⟨2, ![K, C]⟩ .f32)
    (dcol : (⟨2, ![N, 1]⟩ : Shape).Idx → EReal) (d : (⟨1, ![N]⟩ : Shape).Idx → EReal)
    (hdc : ∀ n, dcol (ix2 n (0 : Fin 1)) = d (ix1 n)) (n : Fin N) (c : Fin C) :
    Cert.Layers.scaledProduct x w dcol (ix2 n c) = Host.dotGeneral dd none x w (ix2 n c) * d (ix1 n) := by
  rw [Cert.Layers.scaledProduct_apply, Cert.PlainDot.dotGeneral_apply hdd, hdc]

/-- ONE LAYER, the normaliser multiplied on the right. -/
theorem layer_right (hN : 0 < N)
    {gd gd' : GatherDims ⟨2, ![N, C]⟩ ⟨2, ![E, 1]⟩ ⟨2, ![E, C]⟩} (hgd : IsRowGather gd) (hgd' : IsRowGather gd')
    {sd sd' : ScatterDims ⟨2, ![N, C]⟩ ⟨2, ![E, 1]⟩ ⟨2, ![E, C]⟩} (hsd : IsRowScatter sd) (hsd' : IsRowScatter sd')
    (zeros zeros' : FVec Ideal ⟨2, ![N, C]⟩ .f32) (hz : ∀ i, zeros i = 0) (hz' : ∀ i, zeros' i = 0)
    (D D' : IVec ⟨2, ![E, 1]⟩ 32) (hD : D = D') (S S' : IVec ⟨2, ![E, 1]⟩ 32) (hS : S = S')
    (Sd : IVec ⟨2, ![E, 1]⟩ 32) (hSd : ∀ (e : Fin E) (n : Fin N), Lands D e n → srcRow hN Sd e = n)
    (d : (⟨1, ![N]⟩ : Shape).Idx → EReal) (hd0 : ∀ n, 0 ≤ d (ix1 n)) (hdt : ∀ n, d (ix1 n) ≠ ⊤)
    (dcol : (⟨2, ![N, 1]⟩ : Shape).Idx → EReal) (hdc : ∀ n, dcol (ix2 n (0 : Fin 1)) = d (ix1 n))
    (nrm : FVec Ideal ⟨2, ![E, C]⟩ .f32)
    (hnrm : ∀ e c, nrm (ix2 e c) = d (ix1 (srcRow hN S e)) * d (ix1 (srcRow hN Sd e)))
    {φ : FTy} (hφ : φ.bits < (FTy.f32).bits) (hs : FVec Ideal ⟨2, ![N, C]⟩ φ) (h : FVec Ideal ⟨2, ![N, C]⟩ .f32)
    (hh : ∀ n c, (hs (ix2 n c) : EReal) = h (ix2 n c) * d (ix1 n)) (n : Fin N) (c : Fin C) :
    Host.scatterAdd sd zeros D (extf .f32 (Host.gather gd hs S) hφ) (ix2 n c) * dcol (ix2 n (0 : Fin 1))
      = Host.scatterAdd sd' zeros' D' (mulf (Host.gather gd' h S') nrm) (ix2 n c) := by
  subst hD hS
  have key := congrFun (Cert.GcnLayer.layer_eq hN hgd hgd' hsd hsd' zeros zeros' hz hz' D S Sd hSd d hd0 hdt
    (fun i => d (ix1 (i 0))) (fun _ _ => rfl) nrm hnrm hφ hs h hh) (ix2 n c)
  rw [mulf_apply] at key
  rw [hdc, mul_comm]
  exact key

/-- The rectified "scale by the normaliser, add the bias row" against "add the bias, repeated down the rows, to the
    second program's aggregate, then take the maximum with a zero splat", as whole arrays. -/
theorem hidden_eq (hC : C ≠ 1) (a : FVec Ideal ⟨2, ![N, C]⟩ .f32) (dcol : (⟨2, ![N, 1]⟩ : Shape).Idx → EReal)
    (b : FVec Ideal ⟨1, ![C]⟩ .f32) (hrow : (⟨1, ![C]⟩ : Shape).ShapeCasts ⟨2, ![1, C]⟩)
    (r : FVec Ideal ⟨2, ![N, C]⟩ .f32) (hr : ∀ n c, a (ix2 n c) * dcol (ix2 n (0 : Fin 1)) = r (ix2 n c))
    (h1 : (⟨1, ![C]⟩ : Shape).BroadcastsInDim ⟨2, ![1, C]⟩ ![1])
    (h2 : (⟨2, ![1, C]⟩ : Shape).BroadcastsInDim ⟨2, ![N, C]⟩ ![0, 1])
    (hz : (⟨0, ![]⟩ : Shape).BroadcastsInDim ⟨2, ![N, C]⟩ ![]) :
    Cert.Layers.hidden a dcol (shapeCast ⟨2, ![1, C]⟩ b hrow)
      = maximumf (addf r (broadcastInDim ⟨2, ![N, C]⟩ ![0, 1] h2 (broadcastInDim ⟨2, ![1, C]⟩ ![1] h1 b)))
          (broadcastInDim ⟨2, ![N, C]⟩ ![] hz (constant (F := Ideal) ⟨0, ![]⟩ .f32 0x00000000#32)) := by
  funext i
  obtain ⟨n, c, rfl⟩ : ∃ (n : Fin N) (c : Fin C), i = ix2 n c := ⟨i 0, i 1, eq_ix2 i⟩
  rw [Cert.Layers.hidden_apply, row_apply, hr, maximumf_apply, addf_apply, Cert.Bcast.bias_rows_apply hC,
    zeroSplat_apply]

/-- The plain "scale by the normaliser, add the bias row" against "add the bias, repeated down the rows, to the second
    program's aggregate", as whole arrays. -/
theorem scaleBias_eq (hC : C ≠ 1) (a : FVec Ideal ⟨2, ![N, C]⟩ .f32) (dcol : (⟨2, ![N, 1]⟩ : Shape).Idx → EReal)
    (b : FVec Ideal ⟨1, ![C]⟩ .f32) (hrow : (⟨1, ![C]⟩ : Shape).ShapeCasts ⟨2, ![1, C]⟩)
    (r : FVec Ideal ⟨2, ![N, C]⟩ .f32) (hr : ∀ n c, a (ix2 n c) * dcol (ix2 n (0 : Fin 1)) = r (ix2 n c))
    (h1 : (⟨1, ![C]⟩ : Shape).BroadcastsInDim ⟨2, ![1, C]⟩ ![1])
    (h2 : (⟨2, ![1, C]⟩ : Shape).BroadcastsInDim ⟨2, ![N, C]⟩ ![0, 1]) :
    Cert.Layers.scaleBias a dcol (shapeCast ⟨2, ![1, C]⟩ b hrow)
      = addf r (broadcastInDim ⟨2, ![N, C]⟩ ![0, 1] h2 (broadcastInDim ⟨2, ![1, C]⟩ ![1] h1 b)) := by
  funext i
  obtain ⟨n, c, rfl⟩ : ∃ (n : Fin N) (c : Fin C), i = ix2 n c := ⟨i 0, i 1, eq_ix2 i⟩
  rw [Cert.Layers.scaleBias_apply, row_apply, hr, addf_apply, Cert.Bcast.bias_rows_apply hC]

end Cert.BridgeLib

end
-- ==== Proof.LibRowScale.lean ====
/-
  A ROW FACTOR MOVED ACROSS A CONTRACTION, on the extended reals (general: any finite index type, no program needed).

  A matrix product's row is scaled by a factor `s` either after the contraction, `(Σ_q x q · w q) · s`, or on the left
  operand before it, `Σ_q (x q · s) · w q`. On the extended reals the two agree whenever `s` is non-negative and not
  `+∞`: such a factor distributes over a finite sum whatever the summands are (infinite ones of either sign included),
  and the rest is commutativity and associativity of the product. The degree normaliser `1/√(max 1 d)` is such a
  factor for every extended-real `d`: its argument is at least one, so it lies in `[0, 1]`.
-/
import proofs.«121183_j13262859010221_2_alg».proof.Proof.LibGcnLaw
import Idealize.ShloMosaic.PureOps.Ideal

noncomputable section

open scoped BigOperators

namespace Cert.RowScale

open Idealize.ShloMosaic

/-- Scaling a contraction's result by a non-negative factor other than `+∞` is scaling its left operand. -/
theorem sum_mul_scale {ι : Type} [Fintype ι] (s : EReal) (h0 : 0 ≤ s) (ht : s ≠ ⊤) (x w : ι → EReal) :
    (∑ q, x q * w q) * s = ∑ q, (x q * s) * w q := by
  rw [mul_comm, Cert.GcnLaw.mul_sum Finset.univ s h0 ht]
  refine Finset.sum_congr rfl fun q _ => ?_
  rw [mul_comm s, mul_assoc, mul_comm (w q) s, ← mul_assoc]

/-- The f32 word of `1.0` is the number one. -/
theorem ofBits_one : Ideal.ofBits .f32 0x3F800000#32 = (1 : EReal) := by
  simp [Ideal.ofBits, Ideal.ieee, -EReal.coe_mul]; norm_num

/-- One is above `-∞`. -/
theorem not_one_le_bot : ¬ (1 : EReal) ≤ ⊥ :=
  not_le.mpr (by exact_mod_cast EReal.bot_lt_coe (1 : ℝ))

/-- The reciprocal square root of a number that is at least one is non-negative. -/
theorem rsqrt_nonneg_of_one_le (y : EReal) (hy : 1 ≤ y) : 0 ≤ Ideal.rsqrt y := by
  induction y using EReal.rec with
  | bot => exact absurd hy not_one_le_bot
  | top => simp
  | coe r =>
    have hr : (1 : ℝ) ≤ r := by exact_mod_cast hy
    have hr0 : 0 < r := lt_of_lt_of_le one_pos hr
    rw [Ideal.rsqrt_coe, if_neg (not_lt.mpr hr0.le), if_neg hr0.ne']
    exact_mod_cast (inv_nonneg.mpr (Real.sqrt_nonneg r))

/-- The reciprocal square root of a number that is at least one is not `+∞`. -/
theorem rsqrt_ne_top_of_one_le (y : EReal) (hy : 1 ≤ y) : Ideal.rsqrt y ≠ ⊤ := by
  induction y using EReal.rec with
  | bot => exact absurd hy not_one_le_bot
  | top => simp
  | coe r =>
    have hr : (1 : ℝ) ≤ r := by exact_mod_cast hy
    have hr0 : 0 < r := lt_of_lt_of_le one_pos hr
    rw [Ideal.rsqrt_coe, if_neg (not_lt.mpr hr0.le), if_neg hr0.ne']
    exact EReal.coe_ne_top _

/-- The normaliser of a degree `d`: `1/√(max 1 d)`, the one spelt by its f32 word. -/
def normaliser (d : EReal) : EReal := Ideal.rsqrt (max (Ideal.ofBits .f32 0x3F800000#32) d)

theorem normaliser_nonneg (d : EReal) : 0 ≤ normaliser d :=
  rsqrt_nonneg_of_one_le _ (by rw [ofBits_one]; exact le_max_left _ _)

theorem normaliser_ne_top (d : EReal) : normaliser d ≠ ⊤ :=
  rsqrt_ne_top_of_one_le _ (by rw [ofBits_one]; exact le_max_left _ _)

end Cert.RowScale

end
-- ==== Proof.LibMaxNormaliser.lean ====
/-
  THE DEGREE NORMALISER WITH A FLOOR OF ONE, on the extended reals (general: any shape, any vector g; no program needed).

  Graph convolutions normalise by "where g is positive the reciprocal square root of max(g, 1), zero elsewhere", spelled as
  a selection by a one-bit comparison against a zero splat, over a maximum against a one splat. Read at an entry that is
  the reciprocal square root of max(g i, 1) or zero, as the comparison's bit chooses. The argument of the root is at
  least one, so the entry is non-negative and never +∞ — for EVERY extended-real g i, finite or not. That is what lets
  such a factor distribute over a finite sum of extended reals.
-/
import proofs.«121183_j13262859010221_2_alg».proof.Proof.LibRowScale
import proofs.«121183_j13262859010221_2_alg».proof.Proof.LibBroadcast
import Idealize.ShloMosaic.PureOps.Ideal.Laws
import Idealize.ShloMosaic.Lib.ValueIdx

noncomputable section

namespace Cert.MaxNorm

open Idealize.ShloMosaic Idealize.ShloMosaic.ValueIdx

/-- An entry of "where g is positive the reciprocal square root of max(g, 1), zero elsewhere", for ANY vector g: the
    reciprocal square root of max(g i, 1) or zero, as the comparison's bit chooses. -/
theorem norm_entry {s : Shape} (g : FVec Ideal s .f32) (h : (⟨0, ![]⟩ : Shape).BroadcastsInDim s ![]) (i : s.Idx) :
    select (cmpf (F := Ideal) .ogt g (broadcastInDim s ![] h (constant ⟨0, ![]⟩ .f32 0x00000000#32)))
        (Host.rsqrt (maximumf g (broadcastInDim s ![] h (constant ⟨0, ![]⟩ .f32 0x3F800000#32))))
        (broadcastInDim s ![] h (constant ⟨0, ![]⟩ .f32 0x00000000#32)) i
      = Scalar.select (cmpf (F := Ideal) .ogt g (broadcastInDim s ![] h (constant ⟨0, ![]⟩ .f32 0x00000000#32)) i)
          (Ideal.rsqrt (max (g i) 1)) 0 := by
  have h1 : broadcastInDim s ![] h (constant (F := Ideal) ⟨0, ![]⟩ .f32 0x3F800000#32) i = (1 : EReal) := by
    rw [Cert.Bcast.scalar_apply, constant_apply, Cert.RowScale.ofBits_one]
  have h0 : broadcastInDim s ![] h (constant (F := Ideal) ⟨0, ![]⟩ .f32 0x00000000#32) i = (0 : EReal) := by
    rw [Cert.Bcast.scalar_apply, constant_apply, Ideal.ofBits_zero_f32]
  rw [select_apply, h0]
  exact congrArg (fun z : EReal => Scalar.select _ (Ideal.rsqrt (max (g i) z)) 0) h1

theorem norm_nonneg {s : Shape} (g : FVec Ideal s .f32) (h : (⟨0, ![]⟩ : Shape).BroadcastsInDim s ![]) (i : s.Idx) :
    0 ≤ select (cmpf (F := Ideal) .ogt g (broadcastInDim s ![] h (constant ⟨0, ![]⟩ .f32 0x00000000#32)))
        (Host.rsqrt (maximumf g (broadcastInDim s ![] h (constant ⟨0, ![]⟩ .f32 0x3F800000#32))))
        (broadcastInDim s ![] h (constant ⟨0, ![]⟩ .f32 0x00000000#32)) i := by
  rw [norm_entry g h i]; unfold Scalar.select
  split
  · exact Cert.RowScale.rsqrt_nonneg_of_one_le _ (le_max_right _ _)
  · exact le_refl _

theorem norm_ne_top {s : Shape} (g : FVec Ideal s .f32) (h : (⟨0, ![]⟩ : Shape).BroadcastsInDim s ![]) (i : s.Idx) :
    select (cmpf (F := Ideal) .ogt g (broadcastInDim s ![] h (constant ⟨0, ![]⟩ .f32 0x00000000#32)))
        (Host.rsqrt (maximumf g (broadcastInDim s ![] h (constant ⟨0, ![]⟩ .f32 0x3F800000#32))))
        (broadcastInDim s ![] h (constant ⟨0, ![]⟩ .f32 0x00000000#32)) i ≠ ⊤ := by
  rw [norm_entry g h i]; unfold Scalar.select
  split
  · exact Cert.RowScale.rsqrt_ne_top_of_one_le _ (le_max_right _ _)
  · exact EReal.zero_ne_top

end Cert.MaxNorm

end
-- ==== Proof.Bridge.lean ====
/-
  THE TWO PROGRAMS COMPUTE THE SAME TWO ARRAYS.

  Both programs build the same source / target node lists row, col and the same normaliser d from the edge list (the same
  host operations on the same argument), so those are ONE term on both sides. They differ in where d is applied:

    reference, per layer:   out[n] = ∑ over the edges e into n of  h[row e] · (d[row e] · d[col e])   + b
    kernel,    per layer:   out[n] = (∑ over the edges e into n of  (h[row e] · d[row e])) · d[n]     + b

  with h = x · w the layer's feature transform. An edge into n has col e = n, and d n is non-negative and not +∞ (a
  reciprocal square root of a number that is at least one, or zero), so it distributes over the sum whatever the summands
  are — no finiteness of the features is needed. Applied to layer 1 this identifies the kernel's hidden rows
  max (a1 ⊙ d + b1) 0 with the reference's relu(out1); applied again to layer 2 (whose feature transform is then the same
  product on both sides) it identifies the logits; and the two spellings of the row-wise log-softmax are one function of a
  row.
-/
import proofs.«121183_j13262859010221_2_alg».proof.Proof.KernelValue
import proofs.«121183_j13262859010221_2_alg».proof.Proof.RefReadP
import proofs.«121183_j13262859010221_2_alg».proof.Proof.LibGcnBridge
import proofs.«121183_j13262859010221_2_alg».proof.Proof.LibRowScale
import proofs.«121183_j13262859010221_2_alg».proof.Proof.LibMaxNormaliser
import proofs.«121183_j13262859010221_2_alg».proof.Proof.LibRowLogSoftmax

noncomputable section

namespace Cert.Bridge

open Idealize.ShloMosaic Idealize.ShloMosaic.ValueIdx Cert.RowGS Cert.VecGather
open Cert.KernelIdeal.Host Cert.KernelIdeal.ValueAt
open Cert.ReferenceIdeal.ReadP

/-! ## The records are of the forms the lemmas ask for -/

theorem gK128 : IsRowGather (N := 50000) (E := 850000) (C := 128) Cert.KernelIdeal.gather_S50000x128_S850000x1_S850000x128_1_0_n_n_0_1_1128 :=
  ⟨rfl, rfl, rfl, rfl, rfl, rfl, rfl⟩
theorem gR128 : IsRowGather (N := 50000) (E := 850000) (C := 128) Cert.ReferenceIdeal.gather_S50000x128_S850000x1_S850000x128_1_0_n_n_0_1_1128 :=
  ⟨rfl, rfl, rfl, rfl, rfl, rfl, rfl⟩
theorem gK40 : IsRowGather (N := 50000) (E := 850000) (C := 40) Cert.KernelIdeal.gather_S50000x40_S850000x1_S850000x40_1_0_n_n_0_1_140 :=
  ⟨rfl, rfl, rfl, rfl, rfl, rfl, rfl⟩
theorem gR40 : IsRowGather (N := 50000) (E := 850000) (C := 40) Cert.ReferenceIdeal.gather_S50000x40_S850000x1_S850000x40_1_0_n_n_0_1_140 :=
  ⟨rfl, rfl, rfl, rfl, rfl, rfl, rfl⟩
theorem sK128 : IsRowScatter (N := 50000) (E := 850000) (C := 128) Cert.KernelIdeal.scatter_S50000x128_S850000x1_S850000x128_1_0_0_1 :=
  ⟨rfl, rfl, rfl, rfl⟩
theorem sR128 : IsRowScatter (N := 50000) (E := 850000) (C := 128) Cert.ReferenceIdeal.scatter_S50000x128_S850000x1_S850000x128_1_0_0_1 :=
  ⟨rfl, rfl, rfl, rfl⟩
theorem sK40 : IsRowScatter (N := 50000) (E := 850000) (C := 40) Cert.KernelIdeal.scatter_S50000x40_S850000x1_S850000x40_1_0_0_1 :=
  ⟨rfl, rfl, rfl, rfl⟩
theorem sR40 : IsRowScatter (N := 50000) (E := 850000) (C := 40) Cert.ReferenceIdeal.scatter_S50000x40_S850000x1_S850000x40_1_0_0_1 :=
  ⟨rfl, rfl, rfl, rfl⟩
theorem gV : IsVecGather (N := 50000) (E := 850000) Cert.ReferenceIdeal.gather_S50000_S850000x1_S850000_n_0_n_n_0_1_1 :=
  ⟨rfl, rfl, rfl, rfl, rfl, rfl, rfl⟩
theorem plain1 : Cert.PlainDot.IsPlain (M := 50000) (K := 256) (N := 128) Cert.ReferenceIdeal.dot_S50000x256_S256x128_S50000x128_1_0_0_1_n_n :=
  ⟨rfl, rfl, rfl, rfl, rfl, rfl⟩
theorem plain2 : Cert.PlainDot.IsPlain (M := 50000) (K := 128) (N := 40) Cert.ReferenceIdeal.dot_S50000x128_S128x40_S50000x40_1_0_0_1_n_n :=
  ⟨rfl, rfl, rfl, rfl, rfl, rfl⟩

theorem hN : 0 < 50000 := by decide
theorem hE : 850000 ≠ 1 := by decide

/-! ## The node lists and the normaliser are one term on both sides -/

variable (ei : IVec ⟨2, ![2, 800000]⟩ 32)

/-! ## The normaliser is non-negative and never +∞ -/

/-- The program's normaliser is such a vector, of the degrees. -/
theorem dvec_nonneg (col : IVec Cert.KernelIdeal.S850000 32) (i : Cert.KernelIdeal.S50000.Idx) : 0 ≤ dvecOf col i := by
  unfold dvecOf; exact Cert.MaxNorm.norm_nonneg (degOf col) _ i

theorem dvec_ne_top (col : IVec Cert.KernelIdeal.S850000 32) (i : Cert.KernelIdeal.S50000.Idx) : dvecOf col i ≠ ⊤ := by
  unfold dvecOf; exact Cert.MaxNorm.norm_ne_top (degOf col) _ i

/-- The normaliser column reads the normaliser vector. -/
theorem dcol_apply (col : IVec Cert.KernelIdeal.S850000 32) (n : Fin 50000) :
    dcolOf col (ix2 n (0 : Fin 1)) = dvecOf col (ix1 n) :=
  Cert.Column.shapeCast_a_a1_apply _ _ n 0

/-- An edge that lands on node n has n as its wrapped-and-clamped target. -/
theorem target_row (e : Fin 850000) (n : Fin 50000)
    (hl : Lands (broadcastInDim Cert.KernelIdeal.S850000x1 ![0] Cert.KernelIdeal.Facts₀.bcast_S850000_S850000x1_0 (colOf ei)) e n) :
    srcRow hN (wrapped (colOf ei)) e = n :=
  Cert.GcnLayer.wrapped_target hN _ _ 50000#32 e n
    (Cert.BridgeLib.wrapped_col_apply hE (colOf ei) Cert.KernelIdeal.Facts₀.bcast_S_S850000 Cert.KernelIdeal.Facts₀.bcast_S850000_S850000x1_0 50000#32 e) hl

/-! ## Layer 1 -/

variable (x : FVec Ideal ⟨2, ![50000, 256]⟩ .f32) (w1 : FVec Ideal ⟨2, ![256, 128]⟩ .f32) (b1 : FVec Ideal ⟨1, ![128]⟩ .f32)
  (w2 : FVec Ideal ⟨2, ![128, 40]⟩ .f32) (b2 : FVec Ideal ⟨1, ![40]⟩ .f32)

/-- The reference's edge weight, repeated across 128 lanes: d (source) · d (target). -/
theorem weight128 (e : Fin 850000) (c : Fin 128) :
    val_main_v41 (F := Ideal) ei (ix2 e c)
      = dvecOf (colOf ei) (ix1 (srcRow hN (wrapped (rowOf ei)) e)) * dvecOf (colOf ei) (ix1 (srcRow hN (wrapped (colOf ei)) e)) :=
  Cert.BridgeLib.weight_lanes_apply hE hN gV (dvecOf (colOf ei)) (wrapped (rowOf ei)) (wrapped (colOf ei))
    Cert.ReferenceIdeal.Facts₀.bcast_S850000_S850000x1_0 Cert.ReferenceIdeal.Facts₀.bcast_S850000x1_S850000x128_0_1 e c

/-- The kernel's first call scales row n of the feature transform by d n. -/
theorem hs_rows (n : Fin 50000) (c : Fin 128) :
    ((truncf .bf16 (hs x ei w1) Cert.KernelIdeal.Facts₀.bitsLt_bf16_f32 : FVec Ideal ⟨2, ![50000, 128]⟩ .bf16) (ix2 n c) : EReal)
      = val_main_v32 (F := Ideal) x w1 (ix2 n c) * dvecOf (colOf ei) (ix1 n) :=
  Cert.BridgeLib.scaledProduct_eq_dot plain1 x w1 (dcolOf (colOf ei)) (dvecOf (colOf ei)) (dcol_apply _) n c

/-- The two programs scatter at the same target column and gather at the same wrapped source column (layer 1's buffers). -/
theorem ref_D128 : broadcastInDim Cert.KernelIdeal.S850000x1 ![0] Cert.KernelIdeal.Facts₀.bcast_S850000_S850000x1_0 (colOf ei)
    = val_main_v44 (F := Ideal) ei := rfl
theorem ref_S128 : wrapped (rowOf ei) = val_main_v38 (F := Ideal) ei := rfl
theorem ref_zero128 (i : Cert.ReferenceIdeal.S50000x128.Idx) : val_main_v43 (F := Ideal) i = 0 :=
  Cert.BridgeLib.zeroSplat_apply Cert.ReferenceIdeal.Facts₀.bcast_S_S50000x128 i

/-- LAYER 1: the kernel's aggregate, scaled by the target's normaliser, is the reference's aggregate of weighted rows. -/
theorem layer1 (n : Fin 50000) (c : Fin 128) :
    aggregate128 (hs x ei w1) (rowOf ei) (colOf ei) (ix2 n c) * dcolOf (colOf ei) (ix2 n (0 : Fin 1))
      = val_main_v45 (F := Ideal) x ei w1 (ix2 n c) := by
  have h1 : ∀ i, broadcastInDim Cert.KernelIdeal.S50000x128 ![] Cert.KernelIdeal.Facts₀.bcast_S_S50000x128
      (constant (F := Ideal) Cert.KernelIdeal.S_ .f32 0x00000000#32) i = (0 : EReal) :=
    fun i => Cert.BridgeLib.zeroSplat_apply Cert.KernelIdeal.Facts₀.bcast_S_S50000x128 i
  have h2 := ref_zero128
  have h3 := ref_D128 ei
  have h4 := ref_S128 ei
  have h5 := target_row ei
  have h6 : ∀ n : Fin 50000, 0 ≤ dvecOf (colOf ei) (ix1 n) := fun n => dvec_nonneg _ _
  have h7 : ∀ n : Fin 50000, dvecOf (colOf ei) (ix1 n) ≠ ⊤ := fun n => dvec_ne_top _ _
  have h8 : ∀ n : Fin 50000, dcolOf (colOf ei) (ix2 n (0 : Fin 1)) = dvecOf (colOf ei) (ix1 n) := dcol_apply _
  have h9 := weight128 ei
  have h10 := hs_rows ei x w1
  have key := Cert.BridgeLib.layer_right (N := 50000) (E := 850000) (C := 128) hN gK128 gR128 sK128 sR128 _ _ h1 h2 _ _ h3 _ _ h4 _ h5 _ h6 h7 _ h8 _ h9
    Cert.KernelIdeal.Facts₀.bitsLt_bf16_f32 _ _ h10 n c
  unfold aggregate128 val_main_v45 val_main_v42 val_main_v39
  exact key

/-- The kernel's hidden rows are the reference's rectified first layer. -/
theorem hidden1 :
    Cert.Layers.hidden (N := 50000) (C := 128) (aggregate128 (hs x ei w1) (rowOf ei) (colOf ei)) (dcolOf (colOf ei))
        (shapeCast Cert.KernelIdeal.S1x128 b1 Cert.KernelIdeal.Facts₀.shapeCasts_S128_S1x128)
      = val_main_v49 (F := Ideal) x ei w1 b1 :=
  Cert.BridgeLib.hidden_eq (N := 50000) (C := 128) (by decide) _ _ b1 _ (val_main_v45 (F := Ideal) x ei w1) (layer1 ei x w1)
    Cert.ReferenceIdeal.Facts₀.bcast_S128_S1x128_1 Cert.ReferenceIdeal.Facts₀.bcast_S1x128_S50000x128_0_1 Cert.ReferenceIdeal.Facts₀.bcast_S_S50000x128

/-! ## Layer 2 -/

/-- The reference's edge weight, repeated across 40 lanes. -/
theorem weight40 (e : Fin 850000) (c : Fin 40) :
    val_main_v59 (F := Ideal) ei (ix2 e c)
      = dvecOf (colOf ei) (ix1 (srcRow hN (wrapped (rowOf ei)) e)) * dvecOf (colOf ei) (ix1 (srcRow hN (wrapped (colOf ei)) e)) :=
  Cert.BridgeLib.weight_lanes_apply hE hN gV (dvecOf (colOf ei)) (wrapped (rowOf ei)) (wrapped (colOf ei))
    Cert.ReferenceIdeal.Facts₀.bcast_S850000_S850000x1_0 Cert.ReferenceIdeal.Facts₀.bcast_S850000x1_S850000x40_0_1 e c

/-- The kernel's second call scales row n of the second feature transform — of the same hidden rows — by d n. -/
theorem h2s_rows (n : Fin 50000) (c : Fin 40) :
    ((truncf .bf16 (h2s x ei w1 b1 w2) Cert.KernelIdeal.Facts₀.bitsLt_bf16_f32 : FVec Ideal ⟨2, ![50000, 40]⟩ .bf16) (ix2 n c) : EReal)
      = val_main_v50 (F := Ideal) x ei w1 b1 w2 (ix2 n c) * dvecOf (colOf ei) (ix1 n) := by
  have key := Cert.BridgeLib.scaledProduct_eq_dot plain2 (val_main_v49 (F := Ideal) x ei w1 b1) w2 (dcolOf (colOf ei))
    (dvecOf (colOf ei)) (dcol_apply _) n c
  rw [truncf_apply]
  unfold h2s Cert.Layers.hiddenProduct
  rw [hidden1 ei x w1 b1]
  exact key

/-- The same two columns, in layer 2's buffers. -/
theorem ref_D40 : broadcastInDim Cert.KernelIdeal.S850000x1 ![0] Cert.KernelIdeal.Facts₀.bcast_S850000_S850000x1_0 (colOf ei)
    = val_main_v62 (F := Ideal) ei := rfl
theorem ref_S40 : wrapped (rowOf ei) = val_main_v56 (F := Ideal) ei := rfl
theorem ref_zero40 (i : Cert.ReferenceIdeal.S50000x40.Idx) : val_main_v61 (F := Ideal) i = 0 :=
  Cert.BridgeLib.zeroSplat_apply Cert.ReferenceIdeal.Facts₀.bcast_S_S50000x40 i

/-- LAYER 2. -/
theorem layer2 (n : Fin 50000) (c : Fin 40) :
    aggregate40 (h2s x ei w1 b1 w2) (rowOf ei) (colOf ei) (ix2 n c) * dcolOf (colOf ei) (ix2 n (0 : Fin 1))
      = val_main_v63 (F := Ideal) x ei w1 b1 w2 (ix2 n c) := by
  have h1 : ∀ i, broadcastInDim Cert.KernelIdeal.S50000x40 ![] Cert.KernelIdeal.Facts₀.bcast_S_S50000x40
      (constant (F := Ideal) Cert.KernelIdeal.S_ .f32 0x00000000#32) i = (0 : EReal) :=
    fun i => Cert.BridgeLib.zeroSplat_apply Cert.KernelIdeal.Facts₀.bcast_S_S50000x40 i
  have h2 := ref_zero40
  have h3 := ref_D40 ei
  have h4 := ref_S40 ei
  have h5 := target_row ei
  have h6 : ∀ n : Fin 50000, 0 ≤ dvecOf (colOf ei) (ix1 n) := fun n => dvec_nonneg _ _
  have h7 : ∀ n : Fin 50000, dvecOf (colOf ei) (ix1 n) ≠ ⊤ := fun n => dvec_ne_top _ _
  have h8 : ∀ n : Fin 50000, dcolOf (colOf ei) (ix2 n (0 : Fin 1)) = dvecOf (colOf ei) (ix1 n) := dcol_apply _
  have h9 := weight40 ei
  have h10 := h2s_rows ei x w1 b1 w2
  have key := Cert.BridgeLib.layer_right (N := 50000) (E := 850000) (C := 40) hN gK40 gR40 sK40 sR40 _ _ h1 h2 _ _ h3 _ _ h4 _ h5 _ h6 h7 _ h8 _ h9
    Cert.KernelIdeal.Facts₀.bitsLt_bf16_f32 _ _ h10 n c
  unfold aggregate40 val_main_v63 val_main_v60 val_main_v57
  exact key

/-! ## The two results -/

/-- THE LOGITS of the two programs are one array. -/
theorem logits_eq : logits x ei w1 b1 w2 b2 = val_main_v66 (F := Ideal) x ei w1 b1 w2 b2 :=
  Cert.BridgeLib.scaleBias_eq (N := 50000) (C := 40) (by decide) _ _ b2 _ (val_main_v63 (F := Ideal) x ei w1 b1 w2)
    (layer2 ei x w1 b1 w2) Cert.ReferenceIdeal.Facts₀.bcast_S40_S1x40_1 Cert.ReferenceIdeal.Facts₀.bcast_S1x40_S50000x40_0_1

/-- THE LOG-SOFTMAX of the two programs is one array: the same function of each row of the same logits. -/
theorem logp_eq : logp x ei w1 b1 w2 b2 = val_main_v67 (F := Ideal) x ei w1 b1 w2 b2 := by
  funext i
  obtain ⟨n, c, rfl⟩ : ∃ (n : Fin 50000) (c : Fin 40), i = ix2 n c := ⟨i 0, i 1, eq_ix2 i⟩
  unfold logp
  rw [logits_eq, Cert.Layers.rowLogSoftmax_apply]
  unfold val_main_v67 val_main_call2_v10 val_main_call2_v9 val_main_call2_v8 val_main_call2_v7 val_main_call2_v6 val_main_call2_v5
    val_main_call2_v4 val_main_call2_v3 val_main_call2_v2 val_main_call2_v1 val_main_call2_v0 val_main_call2_cst val_main_call2_cst_0
    val_main_call2_cst_1
  exact (Cert.RowLogSoftmax.host_logSoftmax (R := 50000) (C := 40) (val_main_v66 (F := Ideal) x ei w1 b1 w2 b2)
    Cert.ReferenceIdeal.Facts₀.reducesTo_S50000x40_S50000_d1 Cert.ReferenceIdeal.Facts₀.h_S_ Cert.ReferenceIdeal.Facts₀.bcast_S_S50000
    Cert.ReferenceIdeal.Facts₀.bcast_S50000_S50000x1_0 Cert.ReferenceIdeal.Facts₀.bcast_S50000x1_S50000x40_0_1 (by decide) n c).symm

end Cert.Bridge

end
-- ==== Proof.lean ====
/-
  A two-layer graph convolution network with a log-softmax head over 50000 nodes and 850000 edges (self loops
  included): three pipelined calls (feature transform; hidden layer and second transform; bias and log-softmax) among
  host gathers and scatter-adds, against a plain reference.

  The two programs apply the symmetric normalisation d[src] · d[dst] differently. The reference multiplies every edge's
  message by both factors before summing into the target; the kernel scales the source rows by d before the sum and the
  summed row by d after it. On the extended reals the two agree because d is non-negative and never +∞ — a reciprocal
  square root of a number that is at least one, or zero — and such a factor distributes over a finite sum whatever the
  summands are; so the claim holds for every input and the finiteness precondition is not used. Changes of float format
  are the identity at the ideal instance, and the log-softmax is spelled the same way on both sides.

  * the three frames: the generated frame of each kernel program; the reference's run with its results dropped;
  * `preserves`: the idealization rewrote nothing, so there is nothing to state;
  * `algebraic`: the kernel's run ends with its two results at `logp` / `logits` of the arguments (KernelRun.lean: the
    run; Region0/1/2.lean: each call's result array as one function of its operands; KernelHost.lean and
    KernelValue.lean: the host operations between the calls and the walk through @main), the reference's at the last stages of
    its operations (RefRun.lean), and those are equal arrays (Bridge.lean).
-/
import proofs.«121183_j13262859010221_2_alg».proof.Defs
import proofs.«121183_j13262859010221_2_alg».proof.Proof.Gen.Kernel
import proofs.«121183_j13262859010221_2_alg».proof.Proof.Gen.Kernel.Skeleton
import proofs.«121183_j13262859010221_2_alg».proof.Proof.Gen.Kernel.Launch
import proofs.«121183_j13262859010221_2_alg».proof.Proof.Gen.Kernel.Points
import proofs.«121183_j13262859010221_2_alg».proof.Proof.Gen.Kernel.Frame
import proofs.«121183_j13262859010221_2_alg».proof.Proof.Gen.KernelIdeal
import proofs.«121183_j13262859010221_2_alg».proof.Proof.Gen.KernelIdeal.Skeleton
import proofs.«121183_j13262859010221_2_alg».proof.Proof.Gen.KernelIdeal.Launch
import proofs.«121183_j13262859010221_2_alg».proof.Proof.Gen.KernelIdeal.Points
import proofs.«121183_j13262859010221_2_alg».proof.Proof.Gen.KernelIdeal.Frame
import proofs.«121183_j13262859010221_2_alg».proof.Proof.Gen.ReferenceIdeal
import proofs.«121183_j13262859010221_2_alg».proof.Proof.Gen.Pre_finite_inputs
import proofs.«121183_j13262859010221_2_alg».proof.Proof.KernelRun
import proofs.«121183_j13262859010221_2_alg».proof.Proof.KernelValue
import proofs.«121183_j13262859010221_2_alg».proof.Proof.RefRun
import proofs.«121183_j13262859010221_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.RunAt.run m ρ)

/-- Both programs run; the kernel's results are `logp` and `logits` of its arguments, the reference's the last stages of
    its operations of arguments that agree with the kernel's, and those are the same two arrays. -/
theorem algebraic : Cert.algebraic_KernelIdeal_ReferenceIdeal := by
  intro m ρ m' ρ' _ hagree
  refine ⟨fun c => Cert.KernelIdeal.ValueAt.logp
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => Cert.KernelIdeal.ValueAt.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.ValueAt.result_logp m ρ c),
        (h c).2.1.trans (Cert.KernelIdeal.ValueAt.result_logits m ρ c), (h c).2.2⟩)
      (Cert.KernelIdeal.RunAt.run (F := Ideal) m ρ)
  · refine (θ_run Cert.ReferenceIdeal.defs _ _).mono (fun r h c => ⟨(h c).1.trans ?_, (h c).2.1.trans ?_, (h c).2.2⟩)
      (Cert.ReferenceIdeal.RunAt.run m' ρ')
    · rw [(hagree c).1, (hagree c).2.1, (hagree c).2.2.1, (hagree c).2.2.2.1, (hagree c).2.2.2.2.1, (hagree c).2.2.2.2.2]
      exact (Cert.Bridge.logp_eq _ _ _ _ _ _).symm
    · rw [(hagree c).1, (hagree c).2.1, (hagree c).2.2.1, (hagree c).2.2.2.1, (hagree c).2.2.2.2.1, (hagree c).2.2.2.2.2]
      exact (Cert.Bridge.logits_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
